-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x200 : S_.BroadcastsInDim S100x200 (![] : Fin 0 → Fin S100x200.rank)
  reducesTo_S100x200_S_d0_1 : S100x200.ReducesTo [0, 1] S_
  bcast_S_S200 : S_.BroadcastsInDim S200 (![] : Fin 0 → Fin S200.rank)
  reducesTo_S200_S_d0 : S200.ReducesTo [0] S_
  bcast_S_S200x16 : S_.BroadcastsInDim S200x16 (![] : Fin 0 → Fin S200x16.rank)
  reducesTo_S200x16_S_d0_1 : S200x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S200 .f32) (main_arg6 : FVec F S200x16 .f32) (main_arg7 : FVec F S16 .f32) (main_v13 : IVec S_ 1) (main_v16 : IVec S100x200 1) : IVec S_ 1 :=
  let main_c_5 : IVec S_ 1 := constantI S_ 1 1#1
  let main_v17 : IVec S_ 1 := (fun x v => Host.reduce IntOp.andi x v reducesTo_S100x200_S_d0_1 h_S_) main_v16 main_c_5
  let main_v18 : IVec S_ 1 := andi main_v13 main_v17
  let main_v19 : FVec F S200 .f32 := Host.absf main_arg5
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x16 .f32 := Host.absf main_arg6
  let main_cst_8 : FVec F S_ .f32 := constant S_ .f32 0x7F800000#32
  let main_v25 : FVec F S200x16 .f32 := broadcastInDim S200x16 ![] bcast_S_S200x16 main_cst_8
  let main_v26 : IVec S200x16 1 := cmpf .olt main_v24 main_v25
  let main_c_9 : IVec S_ 1 := constantI S_ 1 1#1
  let main_v27 : IVec S_ 1 := (fun x v => Host.reduce IntOp.andi x v reducesTo_S200x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x100 .f32) (main_arg3 : FVec F S100 .f32) (main_arg4 : FVec F S100x200 .f32) (main_arg5 : FVec F S200 .f32) (main_arg6 : FVec F S200x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x200 .f32 := Host.absf main_arg4
  let main_cst_4 : FVec F S_ .f32 := constant S_ .f32 0x7F800000#32
  let main_v15 : FVec F S100x200 .f32 := broadcastInDim S100x200 ![] bcast_S_S100x200 main_cst_4
  let main_v16 : IVec S100x200 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x100 : Shape := ⟨2, ![50000, 100]⟩
abbrev S5000x128 : Shape := ⟨2, ![5000, 128]⟩
abbrev S5000x1 : Shape := ⟨2, ![5000, 1]⟩
abbrev S5000x100 : Shape := ⟨2, ![5000, 100]⟩
abbrev S850000x100 : Shape := ⟨2, ![850000, 100]⟩
abbrev S1x100 : Shape := ⟨2, ![1, 100]⟩
abbrev S50000x200 : Shape := ⟨2, ![50000, 200]⟩
abbrev S5000x200 : Shape := ⟨2, ![5000, 200]⟩
abbrev S850000x200 : Shape := ⟨2, ![850000, 200]⟩
abbrev S1x200 : Shape := ⟨2, ![1, 200]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 62
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x100, .f32⟩
  | .hbm, ⟨3, _⟩ => ⟨S100, .f32⟩
  | .hbm, ⟨4, _⟩ => ⟨S100x200, .f32⟩
  | .hbm, ⟨5, _⟩ => ⟨S200, .f32⟩
  | .hbm, ⟨6, _⟩ => ⟨S200x16, .f32⟩
  | .hbm, ⟨7, _⟩ => ⟨S16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x100, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x100, .f32⟩
  | .hbm, ⟨40, _⟩ => ⟨S_, .f32⟩
  | .hbm, ⟨41, _⟩ => ⟨S50000x100, .f32⟩
  | .hbm, ⟨42, _⟩ => ⟨S850000x1, .i32⟩
  | .hbm, ⟨43, _⟩ => ⟨S50000x100, .f32⟩
  | .hbm, ⟨44, _⟩ => ⟨S1x100, .f32⟩
  | .hbm, ⟨45, _⟩ => ⟨S50000x200, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x200, .f32⟩
  | .hbm, ⟨55, _⟩ => ⟨S_, .f32⟩
  | .hbm, ⟨56, _⟩ => ⟨S50000x200, .f32⟩
  | .hbm, ⟨57, _⟩ => ⟨S850000x1, .i32⟩
  | .hbm, ⟨58, _⟩ => ⟨S50000x200, .f32⟩
  | .hbm, ⟨59, _⟩ => ⟨S1x200, .f32⟩
  | .hbm, ⟨60, _⟩ => ⟨S1x16, .f32⟩
  | .hbm, ⟨61, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x100, .f32⟩
  | .local _ .vmem, ⟨3, _⟩ => ⟨S5000x1, .f32⟩
  | .local _ .vmem, ⟨4, _⟩ => ⟨S5000x1, .f32⟩
  | .local _ .vmem, ⟨5, _⟩ => ⟨S5000x100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | .local _ .vmem, ⟨9, _⟩ => ⟨S5000x1, .f32⟩
  | .local _ .vmem, ⟨10, _⟩ => ⟨S5000x1, .f32⟩
  | .local _ .vmem, ⟨11, _⟩ => ⟨S1x100, .f32⟩
  | .local _ .vmem, ⟨12, _⟩ => ⟨S100x200, .f32⟩
  | .local _ .vmem, ⟨13, _⟩ => ⟨S5000x200, .f32⟩
  | .local _ .vmem, ⟨14, _⟩ => ⟨S5000x200, .f32⟩
  | .local _ .vmem, ⟨15, _⟩ => ⟨S5000x200, .f32⟩
  | .local _ .vmem, ⟨16, _⟩ => ⟨S5000x200, .f32⟩
  | .local _ .vmem, ⟨17, _⟩ => ⟨S5000x1, .f32⟩
  | .local _ .vmem, ⟨18, _⟩ => ⟨S5000x1, .f32⟩
  | .local _ .vmem, ⟨19, _⟩ => ⟨S1x200, .f32⟩
  | .local _ .vmem, ⟨20, _⟩ => ⟨S200x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S200x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x100 : S5000x1.Broadcasts S5000x100
  inb_S5000x100_S5000x100_0_0 : ∀ a, (![0, 0] : Fin 2 → Nat) a + S5000x100.size a ≤ S5000x100.size a
  h_S5000x100 : 0 < S5000x100.numel
  bcast_S_S50000x100 : S_.BroadcastsInDim S50000x100 (![] : Fin 0 → Fin S50000x100.rank)
  shapeCasts_S100_S1x100 : S100.ShapeCasts S1x100
  shapeCasts_S5000x100_S5000x100 : S5000x100.ShapeCasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x200_S100x200_0_0 : ∀ a, (![0, 0] : Fin 2 → Nat) a + S100x200.size a ≤ S100x200.size a
  h_S100x200 : 0 < S100x200.numel
  broadcasts_S5000x1_S5000x200 : S5000x1.Broadcasts S5000x200
  inb_S5000x200_S5000x200_0_0 : ∀ a, (![0, 0] : Fin 2 → Nat) a + S5000x200.size a ≤ S5000x200.size a
  h_S5000x200 : 0 < S5000x200.numel
  bcast_S_S50000x200 : S_.BroadcastsInDim S50000x200 (![] : Fin 0 → Fin S50000x200.rank)
  shapeCasts_S200_S1x200 : S200.ShapeCasts S1x200
  shapeCasts_S16_S1x16 : S16.ShapeCasts S1x16
  shapeCasts_S5000x200_S5000x200 : S5000x200.ShapeCasts S5000x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  inb_S200x16_S200x16_0_0 : ∀ a, (![0, 0] : Fin 2 → Nat) a + S200x16.size a ≤ S200x16.size a
  h_S200x16 : 0 < S200x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S850000x1_S850000_n_0_0_1_wf : ScatterDims.WF S50000 S850000x1 S850000 [] [0] [0] 1
  dot_S5000x128_S128x100_S5000x100_1_0_0_1_n_n_wf : DotDims.WF S5000x128 S128x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S5000x100_S100x200_S5000x200_1_0_0_1_n_n_wf : DotDims.WF S5000x100 S100x200 S5000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S5000x200_S200x16_S5000x16_1_0_0_1_n_n_wf : DotDims.WF S5000x200 S200x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x100.size a ≤ S50000x100.size a
  hwx0_3 : ∀ i : grid0.Coords, EltTy.bits .f32 = 32 ∨ (Rect.block (s := S50000x100) S5000x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x200.size a ≤ S100x200.size a
  hwx1_3 : ∀ i : grid1.Coords, EltTy.bits .f32 = 32 ∨ (Rect.block (s := S100x200) S100x200.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x200.size a ≤ S50000x200.size a
  hwx1_4 : ∀ i : grid1.Coords, EltTy.bits .f32 = 32 ∨ (Rect.block (s := S50000x200) S5000x200.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x200.size a ≤ S50000x200.size a
  hwx2_0 : ∀ i : grid2.Coords, EltTy.bits .f32 = 32 ∨ (Rect.block (s := S50000x200) S5000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x200.size a ≤ S1x200.size a
  hwx2_2 : ∀ i : grid2.Coords, EltTy.bits .f32 = 32 ∨ (Rect.block (s := S1x200) S1x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S200x16.size a
  hwx2_3 : ∀ i : grid2.Coords, EltTy.bits .f32 = 32 ∨ (Rect.block (s := S200x16) S200x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S50000x16.size a
  hwx2_5 : ∀ i : grid2.Coords, EltTy.bits .f32 = 32 ∨ (Rect.block (s := S50000x16) S5000x16.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S5000x100_S100x200_S5000x200_1_0_0_1_n_n : DotDims S5000x100 S100x200 S5000x200 where
  lhsContracting := [1]
  rhsContracting := [0]
  lhsNonContracting := [0]
  rhsNonContracting := [1]
  lhsBatch := []
  rhsBatch := []
  wf := dot_S5000x100_S100x200_S5000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S5000x200_S200x16_S5000x16_1_0_0_1_n_n : DotDims S5000x200 S200x16 S5000x16 where
  lhsContracting := [1]
  rhsContracting := [0]
  lhsNonContracting := [0]
  rhsNonContracting := [1]
  lhsBatch := []
  rhsBatch := []
  wf := dot_S5000x200_S200x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S100x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x200.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S200x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S1x800000 : Shape := ⟨2, ![1, 800000]⟩
abbrev S800000 : Shape := ⟨1, ![800000]⟩
abbrev S50000x100 : Shape := ⟨2, ![50000, 100]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x200 : Shape := ⟨2, ![50000, 200]⟩
abbrev S850000x200 : Shape := ⟨2, ![850000, 200]⟩
abbrev S1x200 : Shape := ⟨2, ![1, 200]⟩
abbrev S50000x16 : Shape := ⟨2, ![50000, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x100, .f32⟩
  | 3 => ⟨S100, .f32⟩
  | 4 => ⟨S100x200, .f32⟩
  | 5 => ⟨S200, .f32⟩
  | 6 => ⟨S200x16, .f32⟩
  | 7 => ⟨S16, .f32⟩
  | 8 => ⟨S1x800000, .i32⟩
  | 9 => ⟨S800000, .i32⟩
  | 10 => ⟨S1x800000, .i32⟩
  | 11 => ⟨S800000, .i32⟩
  | 12 => ⟨S50000x100, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x100, .f32⟩
  | 58 => ⟨S850000x1, .f32⟩
  | 59 => ⟨S850000x100, .f32⟩
  | 60 => ⟨S850000x100, .f32⟩
  | 61 => ⟨S_, .f32⟩
  | 62 => ⟨S50000x100, .f32⟩
  | 63 => ⟨S850000x1, .i32⟩
  | 64 => ⟨S50000x100, .f32⟩
  | 65 => ⟨S1x100, .f32⟩
  | 66 => ⟨S50000x100, .f32⟩
  | 67 => ⟨S50000x100, .f32⟩
  | 68 => ⟨S_, .f32⟩
  | 69 => ⟨S50000x100, .f32⟩
  | 70 => ⟨S50000x100, .f32⟩
  | 71 => ⟨S50000x200, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x200, .f32⟩
  | 117 => ⟨S850000x1, .f32⟩
  | 118 => ⟨S850000x200, .f32⟩
  | 119 => ⟨S850000x200, .f32⟩
  | 120 => ⟨S_, .f32⟩
  | 121 => ⟨S50000x200, .f32⟩
  | 122 => ⟨S850000x1, .i32⟩
  | 123 => ⟨S50000x200, .f32⟩
  | 124 => ⟨S1x200, .f32⟩
  | 125 => ⟨S50000x200, .f32⟩
  | 126 => ⟨S50000x200, .f32⟩
  | 127 => ⟨S_, .f32⟩
  | _ => ⟨S50000x128, .f32⟩

abbrev hbmTy0_1 (i : Nat) : BufTy := match i % 128 with
  | 0 => ⟨S50000x200, .f32⟩
  | 1 => ⟨S50000x200, .f32⟩
  | 2 => ⟨S50000x16, .f32⟩
  | 3 => ⟨S1x16, .f32⟩
  | 4 => ⟨S50000x16, .f32⟩
  | 5 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x200_S50000x200_1_0_0_1_n_n_wf : DotDims.WF S50000x100 S100x200 S50000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S50000x200_S200x16_S50000x16_1_0_0_1_n_n_wf : DotDims.WF S50000x200 S200x16 S50000x16 [1] [0] [0] [1] [] []

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S50000x200_S200x16_S50000x16_1_0_0_1_n_n : DotDims S50000x200 S200x16 S50000x16 where
  lhsContracting := [1]
  rhsContracting := [0]
  lhsNonContracting := [0]
  rhsNonContracting := [1]
  lhsBatch := []
  rhsBatch := []
  wf := dot_S50000x200_S200x16_S50000x16_1_0_0_1_n_n_wf

class Facts : Prop extends Facts₀ where

variable [Facts]
-- ==== Proof.KRun.lean ====
/-
  The idealized kernel's run with its result named: every weakly fair execution of @main terminates without a fault,
  the eight argument arrays end as launched, and the result array ends at the last boundary's contents — what the third
  pipeline's write-backs leave in it (`Gen.W8` at the result's buffer). The same launch over the same eight segments as the
  frame; the final state is read at one more buffer.
-/
import proofs.«118826_j83958020702803_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the arguments unchanged, the result at the contents the last region leaves. -/
theorem run_named : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.Pay0.lean ====
/-
  What one grid step of the first kernel stores, element by element: row `r` of the block of `x · W1`, scaled by the
  row's own factor `d[r]` (the column block of `deg^(-1/2)`). The change of format to bf16 is the identity on extended
  reals, and the matrix unit's product into a zero accumulator is the plain sum over the 128 contracted features.
-/
import proofs.«118826_j83958020702803_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen

/-- The matrix unit's product into a zero accumulator, at row `p` and column `q`: the sum over the contracted axis. -/
theorem mxu0_at {φ₁ φ₂ : FTy} (l : FVec Ideal S5000x128 φ₁) (r : FVec Ideal S128x100 φ₂) (p : Fin 5000) (q : Fin 100) :
    matmul dot_S5000x128_S128x100_S5000x100_1_0_0_1_n_n none l r (constant S5000x100 .f32 0x00000000#32) (ix2 p q)
      = ∑ k : Fin 128, l (ix2 p k) * r (ix2 k q) := by
  refine (Ideal.matmul_constant_zero_apply dot_S5000x128_S128x100_S5000x100_1_0_0_1_n_n none l r (ix2 p q)).trans ?_
  rw [← Equiv.sum_comp (contrEquiv1 dot_S5000x128_S128x100_S5000x100_1_0_0_1_n_n 128 rfl rfl).symm]
  refine Finset.sum_congr rfl fun k _ => ?_
  have hk := contrEquiv1_symm_val dot_S5000x128_S128x100_S5000x100_1_0_0_1_n_n 128 rfl rfl k
  have el : dot_S5000x128_S128x100_S5000x100_1_0_0_1_n_n.lhsIdx (ix2 p q) ((contrEquiv1 dot_S5000x128_S128x100_S5000x100_1_0_0_1_n_n 128 rfl rfl).symm k) = ix2 p k := funext fun a => Fin.ext (by
    match a with
    | ⟨0, _⟩ =>
      show (dot_S5000x128_S128x100_S5000x100_1_0_0_1_n_n.lhsIdx (ix2 p q) _ 0).val = p.val
      unfold DotDims.lhsIdx
      rw [dif_neg (show ¬(0 : Fin S5000x128.rank) ∈ dot_S5000x128_S128x100_S5000x100_1_0_0_1_n_n.lhsBatch by decide), dif_pos (show (0 : Fin S5000x128.rank) ∈ dot_S5000x128_S128x100_S5000x100_1_0_0_1_n_n.lhsNonContracting by decide)]
      rfl
    | ⟨1, _⟩ => exact (dot_S5000x128_S128x100_S5000x100_1_0_0_1_n_n.lhsIdx_val_of_single rfl (ix2 p q) _).trans hk)
  have er : dot_S5000x128_S128x100_S5000x100_1_0_0_1_n_n.rhsIdx (ix2 p q) ((contrEquiv1 dot_S5000x128_S128x100_S5000x100_1_0_0_1_n_n 128 rfl rfl).symm k) = ix2 k q := funext fun a => Fin.ext (by
    match a with
    | ⟨0, _⟩ => exact (dot_S5000x128_S128x100_S5000x100_1_0_0_1_n_n.rhsIdx_val_of_single rfl (ix2 p q) _).trans hk
    | ⟨1, _⟩ =>
      show (dot_S5000x128_S128x100_S5000x100_1_0_0_1_n_n.rhsIdx (ix2 p q) _ 1).val = q.val
      unfold DotDims.rhsIdx
      rw [dif_neg (show ¬(1 : Fin S128x100.rank) ∈ dot_S5000x128_S128x100_S5000x100_1_0_0_1_n_n.rhsBatch by decide), dif_pos (show (1 : Fin S128x100.rank) ∈ dot_S5000x128_S128x100_S5000x100_1_0_0_1_n_n.rhsNonContracting by decide)]
      rfl)
  rw [el, er]

/-- A column block broadcast along the lanes reads the row's entry. -/
theorem lanes100_at0 (v : FVec Ideal S5000x1 .f32) (p : Fin 5000) (q : Fin 100) :
    broadcastTo S5000x100 (shapeCast S5000x1 v shapeCasts_S5000x1_S5000x1) broadcasts_S5000x1_S5000x100 (ix2 p q) = v (ix2 p 0) := by
  rw [shapeCast_self]
  refine broadcastTo_apply v broadcasts_S5000x1_S5000x100 (ix2 p q) (ix2 p 0) fun a => ?_
  match a with
  | ⟨0, _⟩ => rfl
  | ⟨1, _⟩ => rfl

/-- The stored value at row `p`, column `q`: `(Σ_k x[p,k] · w[k,q]) · d[p]`. -/
theorem pay0_at (x : Vec Ideal S5000x128 .f32) (w : Vec Ideal S128x100 .f32) (d : Vec Ideal S5000x1 .f32)
    (p : Fin 5000) (q : Fin 100) :
    k0_pay1 (F := Ideal) x w d (ix2 p q) = (∑ k : Fin 128, x (ix2 p k) * w (ix2 k q)) * d (ix2 p 0) := by
  unfold k0_pay1
  refine congrArg₂ (· * ·) ?_ ?_
  · exact mxu0_at _ _ p q
  · exact lanes100_at0 d p q

end Cert.KernelIdeal.Val

end
-- ==== Proof.Reg0.lean ====
/-
  The first pipeline's output array, whole: from any entry contents, after its ten grid steps the array holds
  `(x · W1)[n, f] · d[n]` at every row `n` and column `f`. Step `t` owns rows `5000 t … 5000 t + 4999`: it reads that
  row block of `x` and of the column `d`, all of `W1`, and writes back the same row block of the result; the ten blocks
  tile the 50000 rows.
-/
import proofs.«118826_j83958020702803_2_alg».proof.Proof.Gen.KernelIdeal.Frame
import proofs.«118826_j83958020702803_2_alg».proof.Proof.Pay0
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz2_0 : (![0, 0] : Fin 2 → Nat) = fun _ => 0 := funext fun a => by fin_cases a <;> rfl

/-- The scaled product at row `p`, column `q`. -/
def g0 (X : S50000x128.Idx → EReal) (W : S128x100.Idx → EReal) (D : S50000x1.Idx → EReal) (p : Fin 50000) (q : Fin 100) : EReal :=
  (∑ k : Fin 128, X (ix2 p k) * W (ix2 k q)) * D (ix2 p 0)

/-- The same as an array. -/
def G0 (X : S50000x128.Idx → EReal) (W : S128x100.Idx → EReal) (D : S50000x1.Idx → EReal) : S50000x100.Idx → EReal :=
  fun i => g0 X W D ⟨(i 0).val, (i 0).isLt⟩ ⟨(i 1).val, (i 1).isLt⟩

variable (V : (c : Dev nD) → (b : Ref sig .tc) → Buf (Elt Ideal) ((c : Thread nD τ).loc b))

/-- The printed block maps over the grid: a row-block window moves down with the step, the others stay at block zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

set_option maxHeartbeats 1600000 in
/-- What step `t` writes back is block `t` of the whole-array function of the entry contents. -/
theorem flushed0_eq (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2_0]
  simp only [View.ld_unit_zero (S := S5000x128) hz2_0, View.ld_unit_zero (S := S128x100) hz2_0, View.ld_unit_zero (S := S5000x1) hz2_0]
  obtain ⟨e00, e01, e10, e11, e20, e21, e30, e31⟩ := idx_facts0 t
  funext y
  obtain ⟨r, q, rfl⟩ : ∃ (r : Fin 5000) (q : Fin 100), y = ix2 r q := ⟨y 0, y 1, eq_ix2 y⟩
  show k0_pay1 (F := Ideal) (iblk0 V c 0 t) (iblk0 V c 1 t) (iblk0 V c 2 t) (ix2 r q)
    = G0 (V c (Pipeline.arrRef spec0 0)) (V c (Pipeline.arrRef spec0 1)) (V c (Pipeline.arrRef spec0 2)) (((cfg0.win 3).blk t).view.emb (ix2 r q))
  refine (pay0_at (iblk0 V c 0 t) (iblk0 V c 1 t) (iblk0 V c 2 t) r q).trans ?_
  unfold G0 g0
  refine congrArg₂ (· * ·) (Finset.sum_congr rfl fun k _ => congrArg₂ (· * ·) ?_ ?_) ?_
  · unfold iblk0
    rw [View.read_apply]
    refine congrArg (V c (Pipeline.arrRef spec0 0)) (funext fun a => Fin.ext ?_)
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  · unfold iblk0
    rw [View.read_apply]
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 100 + 1 * q.val = win0_3.index t (1 : Fin 2) * 100 + 1 * q.val; omega
  · unfold iblk0
    rw [View.read_apply]
    refine congrArg (V c (Pipeline.arrRef spec0 2)) (funext fun a => Fin.ext ?_)
    match a with
    | ⟨0, _⟩ => show win0_2.index t (0 : Fin 2) * 5000 + 1 * r.val = win0_3.index t (0 : Fin 2) * 5000 + 1 * r.val; omega
    | ⟨1, _⟩ => show win0_2.index t (1 : Fin 2) * 1 + 1 * 0 = 0; omega

/-- An index of the array lies in step `t`'s block iff each coordinate lies in the block's range. -/
theorem mem_blk0 (t : Fin cfg0.N) (i : S50000x100.Idx) :
    i ∈ ((cfg0.win 3).blk t).view.set ↔ ∀ a : Fin 2, win0_3.index t a * S5000x100.size a ≤ (i a).val ∧ (i a).val < win0_3.index t a * S5000x100.size a + S5000x100.size a := by
  show i ∈ ((View.whole main_v16).slice (win0_3.rect t)).set ↔ _
  rw [View.set_slice_whole, Rect.mem_set_unit]
  exact Iff.rfl

/-- The ten row blocks tile the array: row `n` lies in the block of step `n / 5000`. -/
theorem cover0 (i : S50000x100.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 100 := (i 1).isLt
  refine ⟨⟨(i 0).val / 5000, by rw [hN]; omega⟩, flush0_3 _, ?_⟩
  rw [mem_blk0]
  obtain ⟨e00, e01, e10, e11, e20, e21, e30, e31⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 100 ≤ (i 1).val ∧ (i 1).val < win0_3.index _ (1 : Fin 2) * 100 + 100
    rw [e31]; omega

/-- The output array after the region's ten steps. -/
theorem final0 (c : Dev nD) : (dat0 V c).arrAt 3 cfg0.N = G0 (V c (Pipeline.arrRef spec0 0)) (V c (Pipeline.arrRef spec0 1)) (V c (Pipeline.arrRef spec0 2)) :=
  (dat0 V c).arrAt_eq_of_cover 3 (G0 (V c (Pipeline.arrRef spec0 0)) (V c (Pipeline.arrRef spec0 1)) (V c (Pipeline.arrRef spec0 2))) (fun t _ => flushed0_eq V c t) cover0

end Cert.KernelIdeal.Val

end
-- ==== Proof.Pay1.lean ====
/-
  What one grid step of the middle kernel stores, element by element. With `a` the block of aggregated rows, `d` the
  column block of `deg^(-1/2)`, `b` the bias row and `w` the weights: the hidden row is `max (d[r] · a[r, k] + b[k]) 0`, the
  stored value `(Σ_k hidden[r, k] · w[k, q]) · d[r]`. Format changes are the identity on extended reals; the matrix unit's
  product into a zero accumulator is the plain sum over the 100 contracted features.
-/
import proofs.«118826_j83958020702803_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen

/-- The matrix unit's product into a zero accumulator, at row `p` and column `q`: the sum over the contracted axis. -/
theorem mxu1_at {φ₁ φ₂ : FTy} (l : FVec Ideal S5000x100 φ₁) (r : FVec Ideal S100x200 φ₂) (p : Fin 5000) (q : Fin 200) :
    matmul dot_S5000x100_S100x200_S5000x200_1_0_0_1_n_n none l r (constant S5000x200 .f32 0x00000000#32) (ix2 p q)
      = ∑ k : Fin 100, l (ix2 p k) * r (ix2 k q) := by
  refine (Ideal.matmul_constant_zero_apply dot_S5000x100_S100x200_S5000x200_1_0_0_1_n_n none l r (ix2 p q)).trans ?_
  rw [← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ =>
      show (dot_S5000x100_S100x200_S5000x200_1_0_0_1_n_n.lhsIdx (ix2 p q) _ 0).val = p.val
      unfold DotDims.lhsIdx
      rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
      rfl
    | ⟨1, _⟩ => exact (dot_S5000x100_S100x200_S5000x200_1_0_0_1_n_n.lhsIdx_val_of_single rfl (ix2 p q) _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (dot_S5000x100_S100x200_S5000x200_1_0_0_1_n_n.rhsIdx_val_of_single rfl (ix2 p q) _).trans hk
    | ⟨1, _⟩ =>
      show (dot_S5000x100_S100x200_S5000x200_1_0_0_1_n_n.rhsIdx (ix2 p q) _ 1).val = q.val
      unfold DotDims.rhsIdx
      rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
      rfl)
  rw [el, er]

/-- A column block broadcast along 100 lanes reads the row's entry. -/
theorem lanes100_at1 (v : FVec Ideal S5000x1 .f32) (p : Fin 5000) (q : Fin 100) :
    broadcastTo S5000x100 (shapeCast S5000x1 v shapeCasts_S5000x1_S5000x1) broadcasts_S5000x1_S5000x100 (ix2 p q) = v (ix2 p 0) := by
  rw [shapeCast_self]
  refine broadcastTo_apply v broadcasts_S5000x1_S5000x100 (ix2 p q) (ix2 p 0) fun a => ?_
  match a with
  | ⟨0, _⟩ => rfl
  | ⟨1, _⟩ => rfl

/-- A column block broadcast along 200 lanes reads the row's entry. -/
theorem lanes200_at1 (v : FVec Ideal S5000x1 .f32) (p : Fin 5000) (q : Fin 200) :
    broadcastTo S5000x200 (shapeCast S5000x1 v shapeCasts_S5000x1_S5000x1) broadcasts_S5000x1_S5000x200 (ix2 p q) = v (ix2 p 0) := by
  rw [shapeCast_self]
  refine broadcastTo_apply v broadcasts_S5000x1_S5000x200 (ix2 p q) (ix2 p 0) fun a => ?_
  match a with
  | ⟨0, _⟩ => rfl
  | ⟨1, _⟩ => rfl

/-- A one-row block broadcast down 5000 rows reads the column's entry. -/
theorem rows100_at1 (v : FVec Ideal S1x100 .f32) (p : Fin 5000) (q : Fin 100) :
    broadcastTo S5000x100 (shapeCast S1x100 v shapeCasts_S1x100_S1x100) broadcasts_S1x100_S5000x100 (ix2 p q) = v (ix2 0 q) := by
  rw [shapeCast_self]
  refine broadcastTo_apply v broadcasts_S1x100_S5000x100 (ix2 p q) (ix2 0 q) fun a => ?_
  match a with
  | ⟨0, _⟩ => rfl
  | ⟨1, _⟩ => rfl

/-- The hidden activation at row `p`, feature `k`. -/
def hid (a d b : EReal) : EReal := max (d * a + b) (Ideal.ofBits .f32 0x00000000#32)

theorem hid_congr {a a' d d' b b' : EReal} (ha : a = a') (hd : d = d') (hb : b = b') : hid a d b = hid a' d' b' := by
  rw [ha, hd, hb]

/-- The stored value at row `p`, column `q`. -/
theorem pay1_at (a : Vec Ideal S5000x100 .f32) (d : Vec Ideal S5000x1 .f32) (b : Vec Ideal S1x100 .f32) (w : Vec Ideal S100x200 .f32)
    (p : Fin 5000) (q : Fin 200) :
    k1_pay1 (F := Ideal) a d b w (ix2 p q)
      = (∑ k : Fin 100, hid (a (ix2 p k)) (d (ix2 p 0)) (b (ix2 0 k)) * w (ix2 k q)) * d (ix2 p 0) := by
  unfold k1_pay1
  refine congrArg₂ (· * ·) ?_ ?_
  · refine (mxu1_at _ _ p q).trans ?_
    refine Finset.sum_congr rfl fun k _ => ?_
    refine congrArg₂ (· * ·) ?_ rfl
    unfold hid
    refine congrArg₂ max (congrArg₂ (· + ·) (congrArg₂ (· * ·) (lanes100_at1 d p k) ?_) (rows100_at1 b p k)) rfl
    exact congrFun (shapeCast_self a _) _
  · exact lanes200_at1 d p q

end Cert.KernelIdeal.Val

end
-- ==== Proof.Reg1.lean ====
/-
  The middle pipeline's output array, whole: from any entry contents, after its ten grid steps the array holds at row
  `n`, column `f` the value `(Σ_k max (d[n] · a[n, k] + b[k]) 0 · w[k, f]) · d[n]`, with `a` the aggregated rows, `d` the
  column of `deg^(-1/2)`, `b` the bias row and `w` the weights. Step `t` owns rows `5000 t … 5000 t + 4999` of `a`, `d`
  and the result; the ten blocks tile the 50000 rows.
-/
import proofs.«118826_j83958020702803_2_alg».proof.Proof.Gen.KernelIdeal.Frame
import proofs.«118826_j83958020702803_2_alg».proof.Proof.Pay1
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz2_1 : (![0, 0] : Fin 2 → Nat) = fun _ => 0 := funext fun a => by fin_cases a <;> rfl

/-- The layer's scaled output at row `p`, column `q`. -/
def g1 (A : S50000x100.Idx → EReal) (D : S50000x1.Idx → EReal) (B : S1x100.Idx → EReal) (W : S100x200.Idx → EReal) (p : Fin 50000) (q : Fin 200) : EReal :=
  (∑ k : Fin 100, hid (A (ix2 p k)) (D (ix2 p 0)) (B (ix2 0 k)) * W (ix2 k q)) * D (ix2 p 0)

/-- The same as an array. -/
def G1 (A : S50000x100.Idx → EReal) (D : S50000x1.Idx → EReal) (B : S1x100.Idx → EReal) (W : S100x200.Idx → EReal) : S50000x200.Idx → EReal :=
  fun i => g1 A D B W ⟨(i 0).val, (i 0).isLt⟩ ⟨(i 1).val, (i 1).isLt⟩

variable (V : (c : Dev nD) → (b : Ref sig .tc) → Buf (Elt Ideal) ((c : Thread nD τ).loc b))

/-- The printed block maps over the grid: a row-block window moves down with the step, the others stay at block zero. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

set_option maxHeartbeats 1600000 in
/-- What step `t` writes back is block `t` of the whole-array function of the entry contents. -/
theorem flushed1_eq (c : Dev nD) (t : Fin cfg1.N) :
    (dat1 V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz2_1]
  simp only [View.ld_unit_zero (S := S5000x100) hz2_1, View.ld_unit_zero (S := S5000x1) hz2_1, View.ld_unit_zero (S := S1x100) hz2_1, View.ld_unit_zero (S := S100x200) hz2_1]
  obtain ⟨e00, e01, e10, e11, e20, e21, e30, e31, e40, e41⟩ := idx_facts1 t
  funext y
  obtain ⟨r, q, rfl⟩ : ∃ (r : Fin 5000) (q : Fin 200), y = ix2 r q := ⟨y 0, y 1, eq_ix2 y⟩
  show k1_pay1 (F := Ideal) (iblk1 V c 0 t) (iblk1 V c 1 t) (iblk1 V c 2 t) (iblk1 V c 3 t) (ix2 r q)
    = G1 (V c (Pipeline.arrRef spec1 0)) (V c (Pipeline.arrRef spec1 1)) (V c (Pipeline.arrRef spec1 2)) (V c (Pipeline.arrRef spec1 3)) (((cfg1.win 4).blk t).view.emb (ix2 r q))
  refine (pay1_at (iblk1 V c 0 t) (iblk1 V c 1 t) (iblk1 V c 2 t) (iblk1 V c 3 t) r q).trans ?_
  unfold G1 g1
  refine congrArg₂ (· * ·) (Finset.sum_congr rfl fun k _ => congrArg₂ (· * ·) (hid_congr ?_ ?_ ?_) ?_) ?_
  · unfold iblk1
    rw [View.read_apply]
    refine congrArg (V c (Pipeline.arrRef spec1 0)) (funext fun a => Fin.ext ?_)
    match a with
    | ⟨0, _⟩ => show win1_0.index t (0 : Fin 2) * 5000 + 1 * r.val = win1_4.index t (0 : Fin 2) * 5000 + 1 * r.val; omega
    | ⟨1, _⟩ => show win1_0.index t (1 : Fin 2) * 100 + 1 * k.val = k.val; omega
  · unfold iblk1
    rw [View.read_apply]
    refine congrArg (V c (Pipeline.arrRef spec1 1)) (funext fun a => Fin.ext ?_)
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega
  · unfold iblk1
    rw [View.read_apply]
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 100 + 1 * k.val = k.val; omega
  · unfold iblk1
    rw [View.read_apply]
    refine congrArg (V c (Pipeline.arrRef spec1 3)) (funext fun a => Fin.ext ?_)
    match a with
    | ⟨0, _⟩ => show win1_3.index t (0 : Fin 2) * 100 + 1 * k.val = k.val; omega
    | ⟨1, _⟩ => show win1_3.index t (1 : Fin 2) * 200 + 1 * q.val = win1_4.index t (1 : Fin 2) * 200 + 1 * q.val; omega
  · unfold iblk1
    rw [View.read_apply]
    refine congrArg (V c (Pipeline.arrRef spec1 1)) (funext fun a => Fin.ext ?_)
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega

/-- An index of the array lies in step `t`'s block iff each coordinate lies in the block's range. -/
theorem mem_blk1 (t : Fin cfg1.N) (i : S50000x200.Idx) :
    i ∈ ((cfg1.win 4).blk t).view.set ↔ ∀ a : Fin 2, win1_4.index t a * S5000x200.size a ≤ (i a).val ∧ (i a).val < win1_4.index t a * S5000x200.size a + S5000x200.size a := by
  show i ∈ ((View.whole main_v28).slice (win1_4.rect t)).set ↔ _
  rw [View.set_slice_whole, Rect.mem_set_unit]
  exact Iff.rfl

/-- The ten row blocks tile the array: row `n` lies in the block of step `n / 5000`. -/
theorem cover1 (i : S50000x200.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 200 := (i 1).isLt
  refine ⟨⟨(i 0).val / 5000, by rw [hN]; omega⟩, flush1_4 _, ?_⟩
  rw [mem_blk1]
  obtain ⟨e00, e01, e10, e11, e20, e21, e30, e31, e40, e41⟩ := idx_facts1 ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 200 ≤ (i 1).val ∧ (i 1).val < win1_4.index _ (1 : Fin 2) * 200 + 200
    rw [e41]; omega

/-- The output array after the region's ten steps. -/
theorem final1 (c : Dev nD) : (dat1 V c).arrAt 4 cfg1.N = G1 (V c (Pipeline.arrRef spec1 0)) (V c (Pipeline.arrRef spec1 1)) (V c (Pipeline.arrRef spec1 2)) (V c (Pipeline.arrRef spec1 3)) :=
  (dat1 V c).arrAt_eq_of_cover 4 (G1 (V c (Pipeline.arrRef spec1 0)) (V c (Pipeline.arrRef spec1 1)) (V c (Pipeline.arrRef spec1 2)) (V c (Pipeline.arrRef spec1 3))) (fun t _ => flushed1_eq V c t) cover1

end Cert.KernelIdeal.Val

end
-- ==== Proof.Pay2.lean ====
/-
  What one grid step of the head kernel stores, element by element. With `a` the block of aggregated rows, `d` the column
  block of `deg^(-1/2)`, `b` the bias row, `w` the head's weights and `c` its bias row: the hidden row is
  `max (d[r] · a[r, k] + b[k]) 0`, the stored value `Σ_k hidden[r, k] · w[k, q] + c[q]`.
-/
import proofs.«118826_j83958020702803_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen

/-- The matrix unit's product into a zero accumulator, at row `p` and column `q`: the sum over the contracted axis. -/
theorem mxu2_at {φ₁ φ₂ : FTy} (l : FVec Ideal S5000x200 φ₁) (r : FVec Ideal S200x16 φ₂) (p : Fin 5000) (q : Fin 16) :
    matmul dot_S5000x200_S200x16_S5000x16_1_0_0_1_n_n none l r (constant S5000x16 .f32 0x00000000#32) (ix2 p q)
      = ∑ k : Fin 200, l (ix2 p k) * r (ix2 k q) := by
  refine (Ideal.matmul_constant_zero_apply dot_S5000x200_S200x16_S5000x16_1_0_0_1_n_n none l r (ix2 p q)).trans ?_
  rw [← Equiv.sum_comp (contrEquiv1 dot_S5000x200_S200x16_S5000x16_1_0_0_1_n_n 200 rfl rfl).symm]
  refine Finset.sum_congr rfl fun k _ => ?_
  have hk := contrEquiv1_symm_val dot_S5000x200_S200x16_S5000x16_1_0_0_1_n_n 200 rfl rfl k
  have el : dot_S5000x200_S200x16_S5000x16_1_0_0_1_n_n.lhsIdx (ix2 p q) ((contrEquiv1 dot_S5000x200_S200x16_S5000x16_1_0_0_1_n_n 200 rfl rfl).symm k) = ix2 p k := funext fun a => Fin.ext (by
    match a with
    | ⟨0, _⟩ =>
      show (dot_S5000x200_S200x16_S5000x16_1_0_0_1_n_n.lhsIdx (ix2 p q) _ 0).val = p.val
      unfold DotDims.lhsIdx
      rw [dif_neg (show ¬(0 : Fin S5000x200.rank) ∈ dot_S5000x200_S200x16_S5000x16_1_0_0_1_n_n.lhsBatch by decide), dif_pos (show (0 : Fin S5000x200.rank) ∈ dot_S5000x200_S200x16_S5000x16_1_0_0_1_n_n.lhsNonContracting by decide)]
      rfl
    | ⟨1, _⟩ => exact (dot_S5000x200_S200x16_S5000x16_1_0_0_1_n_n.lhsIdx_val_of_single rfl (ix2 p q) _).trans hk)
  have er : dot_S5000x200_S200x16_S5000x16_1_0_0_1_n_n.rhsIdx (ix2 p q) ((contrEquiv1 dot_S5000x200_S200x16_S5000x16_1_0_0_1_n_n 200 rfl rfl).symm k) = ix2 k q := funext fun a => Fin.ext (by
    match a with
    | ⟨0, _⟩ => exact (dot_S5000x200_S200x16_S5000x16_1_0_0_1_n_n.rhsIdx_val_of_single rfl (ix2 p q) _).trans hk
    | ⟨1, _⟩ =>
      show (dot_S5000x200_S200x16_S5000x16_1_0_0_1_n_n.rhsIdx (ix2 p q) _ 1).val = q.val
      unfold DotDims.rhsIdx
      rw [dif_neg (show ¬(1 : Fin S200x16.rank) ∈ dot_S5000x200_S200x16_S5000x16_1_0_0_1_n_n.rhsBatch by decide), dif_pos (show (1 : Fin S200x16.rank) ∈ dot_S5000x200_S200x16_S5000x16_1_0_0_1_n_n.rhsNonContracting by decide)]
      rfl)
  rw [el, er]

/-- A column block broadcast along 200 lanes reads the row's entry. -/
theorem lanes200_at2 (v : FVec Ideal S5000x1 .f32) (p : Fin 5000) (q : Fin 200) :
    broadcastTo S5000x200 (shapeCast S5000x1 v shapeCasts_S5000x1_S5000x1) broadcasts_S5000x1_S5000x200 (ix2 p q) = v (ix2 p 0) := by
  rw [shapeCast_self]
  refine broadcastTo_apply v broadcasts_S5000x1_S5000x200 (ix2 p q) (ix2 p 0) fun a => ?_
  match a with
  | ⟨0, _⟩ => rfl
  | ⟨1, _⟩ => rfl

/-- A one-row block broadcast down 5000 rows reads the column's entry. -/
theorem rows200_at2 (v : FVec Ideal S1x200 .f32) (p : Fin 5000) (q : Fin 200) :
    broadcastTo S5000x200 (shapeCast S1x200 v shapeCasts_S1x200_S1x200) broadcasts_S1x200_S5000x200 (ix2 p q) = v (ix2 0 q) := by
  rw [shapeCast_self]
  refine broadcastTo_apply v broadcasts_S1x200_S5000x200 (ix2 p q) (ix2 0 q) fun a => ?_
  match a with
  | ⟨0, _⟩ => rfl
  | ⟨1, _⟩ => rfl

/-- A one-row block broadcast down 5000 rows reads the column's entry. -/
theorem rows16_at2 (v : FVec Ideal S1x16 .f32) (p : Fin 5000) (q : Fin 16) :
    broadcastTo S5000x16 (shapeCast S1x16 v shapeCasts_S1x16_S1x16) broadcasts_S1x16_S5000x16 (ix2 p q) = v (ix2 0 q) := by
  rw [shapeCast_self]
  refine broadcastTo_apply v broadcasts_S1x16_S5000x16 (ix2 p q) (ix2 0 q) fun a => ?_
  match a with
  | ⟨0, _⟩ => rfl
  | ⟨1, _⟩ => rfl

/-- The hidden activation. -/
def hid2 (a d b : EReal) : EReal := max (d * a + b) (Ideal.ofBits .f32 0x00000000#32)

theorem hid2_congr {a a' d d' b b' : EReal} (ha : a = a') (hd : d = d') (hb : b = b') : hid2 a d b = hid2 a' d' b' := by
  rw [ha, hd, hb]

/-- The stored value at row `p`, column `q`. -/
theorem pay2_at (a : Vec Ideal S5000x200 .f32) (d : Vec Ideal S5000x1 .f32) (b : Vec Ideal S1x200 .f32) (w : Vec Ideal S200x16 .f32)
    (c : Vec Ideal S1x16 .f32) (p : Fin 5000) (q : Fin 16) :
    k2_pay1 (F := Ideal) a d b w c (ix2 p q)
      = (∑ k : Fin 200, hid2 (a (ix2 p k)) (d (ix2 p 0)) (b (ix2 0 k)) * w (ix2 k q)) + c (ix2 0 q) := by
  unfold k2_pay1
  refine congrArg₂ (· + ·) ?_ (rows16_at2 c p q)
  refine (mxu2_at _ _ p q).trans ?_
  refine Finset.sum_congr rfl fun k _ => ?_
  refine congrArg₂ (· * ·) ?_ rfl
  unfold hid2
  refine congrArg₂ max (congrArg₂ (· + ·) (congrArg₂ (· * ·) (lanes200_at2 d p k) ?_) (rows200_at2 b p k)) rfl
  exact congrFun (shapeCast_self a _) _

end Cert.KernelIdeal.Val

end
-- ==== Proof.Reg2.lean ====
/-
  The head pipeline's output array, whole: from any entry contents, after its ten grid steps the array holds at row `n`,
  column `f` the value `Σ_k max (d[n] · a[n, k] + b[k]) 0 · w[k, f] + c[f]`, with `a` the aggregated rows, `d` the column of
  `deg^(-1/2)`, `b` the layer's bias row, `w` the head's weights and `c` its bias row. Step `t` owns rows
  `5000 t … 5000 t + 4999`; the ten blocks tile the 50000 rows.
-/
import proofs.«118826_j83958020702803_2_alg».proof.Proof.Gen.KernelIdeal.Frame
import proofs.«118826_j83958020702803_2_alg».proof.Proof.Pay2
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz2_2 : (![0, 0] : Fin 2 → Nat) = fun _ => 0 := funext fun a => by fin_cases a <;> rfl

/-- The head's output at row `p`, column `q`. -/
def g2 (A : S50000x200.Idx → EReal) (D : S50000x1.Idx → EReal) (B : S1x200.Idx → EReal) (W : S200x16.Idx → EReal) (C : S1x16.Idx → EReal) (p : Fin 50000) (q : Fin 16) : EReal :=
  (∑ k : Fin 200, hid2 (A (ix2 p k)) (D (ix2 p 0)) (B (ix2 0 k)) * W (ix2 k q)) + C (ix2 0 q)

/-- The same as an array. -/
def G2 (A : S50000x200.Idx → EReal) (D : S50000x1.Idx → EReal) (B : S1x200.Idx → EReal) (W : S200x16.Idx → EReal) (C : S1x16.Idx → EReal) : S50000x16.Idx → EReal :=
  fun i => g2 A D B W C ⟨(i 0).val, (i 0).isLt⟩ ⟨(i 1).val, (i 1).isLt⟩

variable (V : (c : Dev nD) → (b : Ref sig .tc) → Buf (Elt Ideal) ((c : Thread nD τ).loc b))

/-- The printed block maps over the grid: a row-block window moves down with the step, the others stay at block zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

set_option maxHeartbeats 1600000 in
/-- What step `t` writes back is block `t` of the whole-array function of the entry contents. -/
theorem flushed2_eq (c : Dev nD) (t : Fin cfg2.N) :
    (dat2 V c).flushed 5 t = ((cfg2.win 5).blk t).view.read (Elt Ideal)
      (G2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz2_2]
  simp only [View.ld_unit_zero (S := S5000x200) hz2_2, View.ld_unit_zero (S := S5000x1) hz2_2, View.ld_unit_zero (S := S1x200) hz2_2, View.ld_unit_zero (S := S200x16) hz2_2, View.ld_unit_zero (S := S1x16) hz2_2]
  obtain ⟨e00, e01, e10, e11, e20, e21, e30, e31, e40, e41, e50, e51⟩ := idx_facts2 t
  funext y
  obtain ⟨r, q, rfl⟩ : ∃ (r : Fin 5000) (q : Fin 16), y = ix2 r q := ⟨y 0, y 1, eq_ix2 y⟩
  show k2_pay1 (F := Ideal) (iblk2 V c 0 t) (iblk2 V c 1 t) (iblk2 V c 2 t) (iblk2 V c 3 t) (iblk2 V c 4 t) (ix2 r q)
    = G2 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 r q))
  refine (pay2_at (iblk2 V c 0 t) (iblk2 V c 1 t) (iblk2 V c 2 t) (iblk2 V c 3 t) (iblk2 V c 4 t) r q).trans ?_
  unfold G2 g2
  refine congrArg₂ (· + ·) (Finset.sum_congr rfl fun k _ => congrArg₂ (· * ·) (hid2_congr ?_ ?_ ?_) ?_) ?_
  · unfold iblk2
    rw [View.read_apply]
    refine congrArg (V c (Pipeline.arrRef spec2 0)) (funext fun a => Fin.ext ?_)
    match a with
    | ⟨0, _⟩ => show win2_0.index t (0 : Fin 2) * 5000 + 1 * r.val = win2_5.index t (0 : Fin 2) * 5000 + 1 * r.val; omega
    | ⟨1, _⟩ => show win2_0.index t (1 : Fin 2) * 200 + 1 * k.val = k.val; omega
  · unfold iblk2
    rw [View.read_apply]
    refine congrArg (V c (Pipeline.arrRef spec2 1)) (funext fun a => Fin.ext ?_)
    match a with
    | ⟨0, _⟩ => show win2_1.index t (0 : Fin 2) * 5000 + 1 * r.val = win2_5.index t (0 : Fin 2) * 5000 + 1 * r.val; omega
    | ⟨1, _⟩ => show win2_1.index t (1 : Fin 2) * 1 + 1 * 0 = 0; omega
  · unfold iblk2
    rw [View.read_apply]
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 200 + 1 * k.val = k.val; omega
  · unfold iblk2
    rw [View.read_apply]
    refine congrArg (V c (Pipeline.arrRef spec2 3)) (funext fun a => Fin.ext ?_)
    match a with
    | ⟨0, _⟩ => show win2_3.index t (0 : Fin 2) * 200 + 1 * k.val = k.val; omega
    | ⟨1, _⟩ => show win2_3.index t (1 : Fin 2) * 16 + 1 * q.val = win2_5.index t (1 : Fin 2) * 16 + 1 * q.val; omega
  · unfold iblk2
    rw [View.read_apply]
    refine congrArg (V c (Pipeline.arrRef spec2 4)) (funext fun a => Fin.ext ?_)
    match a with
    | ⟨0, _⟩ => show win2_4.index t (0 : Fin 2) * 1 + 1 * 0 = 0; omega
    | ⟨1, _⟩ => show win2_4.index t (1 : Fin 2) * 16 + 1 * q.val = win2_5.index t (1 : Fin 2) * 16 + 1 * q.val; omega

/-- An index of the array lies in step `t`'s block iff each coordinate lies in the block's range. -/
theorem mem_blk2 (t : Fin cfg2.N) (i : S50000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v41).slice (win2_5.rect t)).set ↔ _
  rw [View.set_slice_whole, Rect.mem_set_unit]
  exact Iff.rfl

/-- The ten row blocks tile the array: row `n` lies in the block of step `n / 5000`. -/
theorem cover2 (i : S50000x16.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 16 := (i 1).isLt
  refine ⟨⟨(i 0).val / 5000, by rw [hN]; omega⟩, flush2_5 _, ?_⟩
  rw [mem_blk2]
  obtain ⟨e00, e01, e10, e11, e20, e21, e30, e31, e40, e41, e50, e51⟩ := idx_facts2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 16 ≤ (i 1).val ∧ (i 1).val < win2_5.index _ (1 : Fin 2) * 16 + 16
    rw [e51]; omega

/-- The output array after the region's ten steps. -/
theorem final2 (c : Dev nD) : (dat2 V c).arrAt 5 cfg2.N = G2 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (G2 (V c (Pipeline.arrRef spec2 0)) (V c (Pipeline.arrRef spec2 1)) (V c (Pipeline.arrRef spec2 2)) (V c (Pipeline.arrRef spec2 3)) (V c (Pipeline.arrRef spec2 4))) (fun t _ => flushed2_eq V c t) cover2

end Cert.KernelIdeal.Val

end
-- ==== Proof.GraphOps.lean ====
/-
  The graph operations both programs share, as functions of their operands (extended reals, `F := Ideal`).

  An edge list is two index arrays `row`, `col` of 850000 signed 32-bit words (800000 given edges followed by one
  self-loop per node). A gather reads row `wrapIdx row e` of a node array: a negative word is first shifted by the
  number of nodes, 50000, and the gather then clamps the start into the array. A scatter-add sends update `e` to node
  `col e`, read signed and NOT clamped: an update whose target lies outside `[0, 50000)` is dropped.

  * `degOf col`  — the in-degree: the scatter-add of ones.
  * `disOf col`  — `deg^(-1/2)` where the degree is positive, `0` elsewhere.
  * `aggKer Y`   — the plain aggregation `out[n] = Σ_{e : col e = n} Y[row e]`.
  * `aggRef X d` — the normalised aggregation `out[n] = Σ_{e : col e = n} X[row e] · (d[row e] · d[col e])`.
-/
import proofs.«118826_j83958020702803_2_alg».proof.ReferenceIdeal
import proofs.«118826_j83958020702803_2_alg».proof.Proof.Gen.ReferenceIdeal
import Idealize.ShloMosaic.PureOps.Ideal

noncomputable section

namespace Cert.Graph

open Idealize.ShloMosaic Cert.ReferenceIdeal Cert.ReferenceIdeal.Gen

/-- A start-index array for a gather: negative words shifted by the number of nodes, as a column. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A scatter-index array: the words as they are, as a column. -/
def colIdx (v : IVec S850000 32) : IVec S850000x1 32 :=
  broadcastInDim S850000x1 ![0] bcast_S850000_S850000x1_0 v

/-- The in-degree of every node: one per edge that targets it. -/
def degOf (col : IVec S850000 32) : FVec Ideal S50000 .f32 :=
  Host.scatterAdd scatter_S50000_S850000x1_S850000_n_0_0_1
    (broadcastInDim S50000 ![] bcast_S_S50000 (constant S_ .f32 0x00000000#32)) (colIdx col)
    (broadcastInDim S850000 ![] bcast_S_S850000 (constant S_ .f32 0x3F800000#32))

/-- `deg^(-1/2)` where the degree is positive, zero elsewhere. -/
def disOf (col : IVec S850000 32) : FVec Ideal S50000 .f32 :=
  select (cmpf .ogt (degOf col) (broadcastInDim S50000 ![] bcast_S_S50000 (constant S_ .f32 0x00000000#32)))
    (Host.rsqrt (degOf col)) (broadcastInDim S50000 ![] bcast_S_S50000 (id (constant S_ .f32 0x00000000#32)))

/-- The edge weights `d[row e] · d[col e]`. -/
def normOf (dv : FVec Ideal S50000 .f32) (row col : IVec S850000 32) : FVec Ideal S850000 .f32 :=
  mulf (Host.gather gather_S50000_S850000x1_S850000_n_0_n_n_0_1_1 dv (wrapIdx row))
    (Host.gather gather_S50000_S850000x1_S850000_n_0_n_n_0_1_1 dv (wrapIdx col))

/-- Plain aggregation of 100-wide rows. -/
def aggKer100 (Y : FVec Ideal S50000x100 .f32) (row col : IVec S850000 32) : FVec Ideal S50000x100 .f32 :=
  Host.scatterAdd scatter_S50000x100_S850000x1_S850000x100_1_0_0_1
    (broadcastInDim S50000x100 ![] bcast_S_S50000x100 (constant S_ .f32 0x00000000#32)) (colIdx col)
    (Host.gather gather_S50000x100_S850000x1_S850000x100_1_0_n_n_0_1_1100 Y (wrapIdx row))

/-- Normalised aggregation of 100-wide rows. -/
def aggRef100 (X : FVec Ideal S50000x100 .f32) (dv : FVec Ideal S50000 .f32) (row col : IVec S850000 32) :
    FVec Ideal S50000x100 .f32 :=
  Host.scatterAdd scatter_S50000x100_S850000x1_S850000x100_1_0_0_1
    (broadcastInDim S50000x100 ![] bcast_S_S50000x100 (constant S_ .f32 0x00000000#32)) (colIdx col)
    (mulf (Host.gather gather_S50000x100_S850000x1_S850000x100_1_0_n_n_0_1_1100 X (wrapIdx row))
      (broadcastInDim S850000x100 ![0, 1] bcast_S850000x1_S850000x100_0_1
        (broadcastInDim S850000x1 ![0] bcast_S850000_S850000x1_0 (normOf dv row col))))

/-- Plain aggregation of 200-wide rows. -/
def aggKer200 (Y : FVec Ideal S50000x200 .f32) (row col : IVec S850000 32) : FVec Ideal S50000x200 .f32 :=
  Host.scatterAdd scatter_S50000x200_S850000x1_S850000x200_1_0_0_1
    (broadcastInDim S50000x200 ![] bcast_S_S50000x200 (constant S_ .f32 0x00000000#32)) (colIdx col)
    (Host.gather gather_S50000x200_S850000x1_S850000x200_1_0_n_n_0_1_1200 Y (wrapIdx row))

/-- Normalised aggregation of 200-wide rows. -/
def aggRef200 (X : FVec Ideal S50000x200 .f32) (dv : FVec Ideal S50000 .f32) (row col : IVec S850000 32) :
    FVec Ideal S50000x200 .f32 :=
  Host.scatterAdd scatter_S50000x200_S850000x1_S850000x200_1_0_0_1
    (broadcastInDim S50000x200 ![] bcast_S_S50000x200 (constant S_ .f32 0x00000000#32)) (colIdx col)
    (mulf (Host.gather gather_S50000x200_S850000x1_S850000x200_1_0_n_n_0_1_1200 X (wrapIdx row))
      (broadcastInDim S850000x200 ![0, 1] bcast_S850000x1_S850000x200_0_1
        (broadcastInDim S850000x1 ![0] bcast_S850000_S850000x1_0 (normOf dv row col))))

end Cert.Graph

end
-- ==== Proof.Edges.lean ====
/-
  The edge lists with one self-loop per node appended: `rowOf` the sources (row 0 of the index pair array, then
  0 … 49999), `colOf` the targets (row 1, then 0 … 49999).
-/
import proofs.«118826_j83958020702803_2_alg».proof.Proof.GraphOps

noncomputable section

namespace Cert.Graph

open Idealize.ShloMosaic Cert.ReferenceIdeal Cert.ReferenceIdeal.Gen

/-- The sources: the given edges' first row, then every node once. -/
def rowOf (e : IVec S2x800000 32) : IVec S850000 32 :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0

/-- The targets: the given edges' second row, then every node once. -/
def colOf (e : IVec S2x800000 32) : IVec S850000 32 :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

end Cert.Graph

end
-- ==== Proof.KSpec.lean ====
/-
  The idealized kernel's result as one function of its eight arguments, stage by stage:
  `d` the column of `deg^(-1/2)`; `Y1 = (x · W1) ⊙ d`; `A1` its plain aggregation over the edges; `Y2 = (relu(d ⊙ A1 + b1) · W2) ⊙ d`;
  `A2` its plain aggregation; the result `relu(d ⊙ A2 + b2) · Wfc + bfc`. Biases enter as one-row arrays, `d` as a column.
-/
import proofs.«118826_j83958020702803_2_alg».proof.Proof.Gen.KernelIdeal
import proofs.«118826_j83958020702803_2_alg».proof.Proof.Reg0
import proofs.«118826_j83958020702803_2_alg».proof.Proof.Reg1
import proofs.«118826_j83958020702803_2_alg».proof.Proof.Reg2
import proofs.«118826_j83958020702803_2_alg».proof.Proof.Edges

noncomputable section

namespace Cert.KernelIdeal.Val

open Idealize.ShloMosaic Idealize.ShloMosaic.ValueIdx Cert.KernelIdeal Cert.KernelIdeal.Gen

variable (x0 : S50000x128.Idx → EReal) (x1 : IVec S2x800000 32) (x2 : S128x100.Idx → EReal) (x3 : S100.Idx → EReal)
  (x4 : S100x200.Idx → EReal) (x5 : S200.Idx → EReal) (x6 : S200x16.Idx → EReal) (x7 : S16.Idx → EReal)

/-- `deg^(-1/2)` as a column. -/
def kdis : S50000x1.Idx → EReal := shapeCast S50000x1 (Cert.Graph.disOf (Cert.Graph.colOf x1)) shapeCasts_S50000_S50000x1
/-- The first layer's scaled features. -/
def kY1 : S50000x100.Idx → EReal := G0 x0 x2 (kdis x1)
/-- Their aggregation over the edges. -/
def kA1 : S50000x100.Idx → EReal := Cert.Graph.aggKer100 (kY1 x0 x1 x2) (Cert.Graph.rowOf x1) (Cert.Graph.colOf x1)
/-- The second layer's scaled features. -/
def kY2 : S50000x200.Idx → EReal := G1 (kA1 x0 x1 x2) (kdis x1) (shapeCast S1x100 x3 shapeCasts_S100_S1x100) x4
/-- Their aggregation over the edges. -/
def kA2 : S50000x200.Idx → EReal := Cert.Graph.aggKer200 (kY2 x0 x1 x2 x3 x4) (Cert.Graph.rowOf x1) (Cert.Graph.colOf x1)
/-- The result. -/
def kOut : S50000x16.Idx → EReal :=
  G2 (kA2 x0 x1 x2 x3 x4) (kdis x1) (shapeCast S1x200 x5 shapeCasts_S200_S1x200) x6 (shapeCast S1x16 x7 shapeCasts_S16_S1x16)

end Cert.KernelIdeal.Val

end
-- ==== Proof.KFold.lean ====
/-
  The idealized kernel's buffer contents, boundary by boundary, from the launch to the return.

  The kernel's @main is eight segments: three stretches of host operations that build the edge lists (the given edges
  followed by one self-loop per node) and the column `deg^(-1/2)`; the first pipeline (the scaled feature transform); a
  stretch that aggregates its result over the edges and reshapes the first bias; the second pipeline; a stretch that
  aggregates again and reshapes the two remaining biases; the third pipeline (the head). At each boundary every buffer a
  later segment reads is identified here with a stage of the kernel's value as one function of the eight arguments:
  a host stretch that does not write a buffer leaves it, one that writes it leaves its operations' term over what it
  read; a pipeline leaves its input arrays and the buffers that are not its arrays, and leaves its output array at the
  whole-array function of its inputs. The last pipeline's output is the kernel's result.
-/
import proofs.«118826_j83958020702803_2_alg».proof.Proof.KSpec

set_option maxRecDepth 16384

noncomputable section

namespace Cert.KernelIdeal.Run

open Idealize.ShloMosaic Idealize.ShloMosaic.TcCoe Idealize.SL.Sem Cert.KernelIdeal Cert.KernelIdeal.Gen
  Cert.KernelIdeal.Val

variable (m : (ℓ : Loc nD τ sig) → Buf (Elt Ideal) ℓ) (ρ : Dev nD → PrngReg)

/-! ## The eight arguments as launched -/

/-- The node features, as the launch memory holds them. -/
abbrev X0 (c : Dev nD) : S50000x128.Idx → EReal := m ((c : Thread nD τ).loc main_arg0)
/-- The edge index pairs, as the launch memory holds them. -/
abbrev X1 (c : Dev nD) : IVec S2x800000 32 := m ((c : Thread nD τ).loc main_arg1)
/-- The first layer's weights, as the launch memory holds them. -/
abbrev X2 (c : Dev nD) : S128x100.Idx → EReal := m ((c : Thread nD τ).loc main_arg2)
/-- The first layer's bias, as the launch memory holds them. -/
abbrev X3 (c : Dev nD) : S100.Idx → EReal := m ((c : Thread nD τ).loc main_arg3)
/-- The second layer's weights, as the launch memory holds them. -/
abbrev X4 (c : Dev nD) : S100x200.Idx → EReal := m ((c : Thread nD τ).loc main_arg4)
/-- The second layer's bias, as the launch memory holds them. -/
abbrev X5 (c : Dev nD) : S200.Idx → EReal := m ((c : Thread nD τ).loc main_arg5)
/-- The head's weights, as the launch memory holds them. -/
abbrev X6 (c : Dev nD) : S200x16.Idx → EReal := m ((c : Thread nD τ).loc main_arg6)
/-- The head's bias, as the launch memory holds them. -/
abbrev X7 (c : Dev nD) : S16.Idx → EReal := m ((c : Thread nD τ).loc main_arg7)

/-! ## From the launch to the first pipeline's entry

The first three stretches write neither an argument nor, once built, the edge lists; they end with the column
`deg^(-1/2)`. -/

theorem W3_arg0 (c : Dev nD) : W3 m ρ c (Proc.devRef .tc main_arg0) = X0 m c := by
  dsimp only [W3, W2, W1, hostOps0, hostOps0_1, hostOps0_2]
  after_results
theorem W3_arg2 (c : Dev nD) : W3 m ρ c (Proc.devRef .tc main_arg2) = X2 m c := by
  dsimp only [W3, W2, W1, hostOps0, hostOps0_1, hostOps0_2]
  after_results
theorem W3_arg3 (c : Dev nD) : W3 m ρ c (Proc.devRef .tc main_arg3) = X3 m c := by
  dsimp only [W3, W2, W1, hostOps0, hostOps0_1, hostOps0_2]
  after_results
theorem W3_arg4 (c : Dev nD) : W3 m ρ c (Proc.devRef .tc main_arg4) = X4 m c := by
  dsimp only [W3, W2, W1, hostOps0, hostOps0_1, hostOps0_2]
  after_results
theorem W3_arg5 (c : Dev nD) : W3 m ρ c (Proc.devRef .tc main_arg5) = X5 m c := by
  dsimp only [W3, W2, W1, hostOps0, hostOps0_1, hostOps0_2]
  after_results
theorem W3_arg6 (c : Dev nD) : W3 m ρ c (Proc.devRef .tc main_arg6) = X6 m c := by
  dsimp only [W3, W2, W1, hostOps0, hostOps0_1, hostOps0_2]
  after_results
theorem W3_arg7 (c : Dev nD) : W3 m ρ c (Proc.devRef .tc main_arg7) = X7 m c := by
  dsimp only [W3, W2, W1, hostOps0, hostOps0_1, hostOps0_2]
  after_results
/-- The sources: the given edges' first row, then every node once. -/
theorem W3_v5 (c : Dev nD) : W3 m ρ c (Proc.devRef .tc main_v5) = Cert.Graph.rowOf (X1 m c) := by
  dsimp only [W3, W2, W1, hostOps0, hostOps0_1, hostOps0_2]
  after_results
  rfl
/-- The targets: the given edges' second row, then every node once. -/
theorem W3_v6 (c : Dev nD) : W3 m ρ c (Proc.devRef .tc main_v6) = Cert.Graph.colOf (X1 m c) := by
  dsimp only [W3, W2, W1, hostOps0, hostOps0_1, hostOps0_2]
  after_results
  rfl

/-! The column `deg^(-1/2)`, stretch by stretch: the first stretch leaves the in-degree's comparison with zero and its
inverse square root, the second selects between that and zero, the third reshapes the result to a column. -/

set_option maxHeartbeats 1000000 in
/-- The comparison: is the in-degree (a scatter of ones at the targets) positive. -/
theorem W1_v12 (c : Dev nD) : W1 m ρ c (Proc.devRef .tc main_v12)
    = cmpf .ogt (Cert.Graph.degOf (Cert.Graph.colOf (X1 m c)))
        (broadcastInDim S50000 ![] bcast_S_S50000 (constant S_ .f32 0x00000000#32)) := by
  dsimp only [W1, hostOps0]
  after_results
  rfl
set_option maxHeartbeats 1000000 in
/-- The in-degree's inverse square root. -/
theorem W1_v13 (c : Dev nD) : W1 m ρ c (Proc.devRef .tc main_v13) = Host.rsqrt (Cert.Graph.degOf (Cert.Graph.colOf (X1 m c))) := by
  dsimp only [W1, hostOps0]
  after_results
  rfl
/-- The zero the selection falls back to. -/
theorem W1_cst_2 (c : Dev nD) : W1 m ρ c (Proc.devRef .tc main_cst_2) = constant (F := Ideal) S_ .f32 0x00000000#32 := by
  dsimp only [W1, hostOps0]
  after_results
/-- The selection: `deg^(-1/2)` where the degree is positive, zero elsewhere. -/
theorem W2_v14 (c : Dev nD) : W2 m ρ c (Proc.devRef .tc main_v14) = Cert.Graph.disOf (Cert.Graph.colOf (X1 m c)) := by
  have e : W2 m ρ c (Proc.devRef .tc main_v14)
      = select (W1 m ρ c (Proc.devRef .tc main_v12)) (W1 m ρ c (Proc.devRef .tc main_v13))
          (broadcastInDim S50000 ![] bcast_S_S50000 (id (W1 m ρ c (Proc.devRef .tc main_cst_2)))) := by
    dsimp only [W2, hostOps0_1]
    generalize W1 m ρ c = U
    after_results
    rfl
  rw [e, W1_v12, W1_v13, W1_cst_2]
  rfl
/-- The column. -/
theorem W3_v15 (c : Dev nD) : W3 m ρ c (Proc.devRef .tc main_v15) = kdis (X1 m c) := by
  have e : W3 m ρ c (Proc.devRef .tc main_v15)
      = shapeCast S50000x1 (W2 m ρ c (Proc.devRef .tc main_v14)) shapeCasts_S50000_S50000x1 := by
    dsimp only [W3, hostOps0_2]
    generalize W2 m ρ c = U
    after_results
    rfl
  rw [e, W2_v14]
  rfl

/-! ## The first pipeline

Its arrays are the features, the first weights and the column (inputs) and the scaled features (output). -/

/-- The first pipeline's output: the scaled feature transform. -/
theorem W4_v16 (c : Dev nD) : W4 m ρ c (Proc.devRef .tc main_v16) = kY1 (X0 m c) (X1 m c) (X2 m c) := by
  refine (W4_arr m ρ c 3).trans ((final0 (V3 m ρ) c).trans ?_)
  unfold kY1
  exact congr (congr (congrArg G0 (W3_arg0 m ρ c)) (W3_arg2 m ρ c)) (W3_v15 m ρ c)
/-- The column is an input array: unchanged. -/
theorem W4_v15 (c : Dev nD) : W4 m ρ c (Proc.devRef .tc main_v15) = kdis (X1 m c) :=
  ((W4_arr m ρ c 2).trans (((dat0 (V3 m ρ) c).arrAt_in 2 rfl _).trans (A_eq0 (V3 m ρ) c 2))).trans (W3_v15 m ρ c)
theorem W4_v5 (c : Dev nD) : W4 m ρ c (Proc.devRef .tc main_v5) = Cert.Graph.rowOf (X1 m c) :=
  (W4_of_ne m ρ c main_v5 (by decide)).trans (W3_v5 m ρ c)
theorem W4_v6 (c : Dev nD) : W4 m ρ c (Proc.devRef .tc main_v6) = Cert.Graph.colOf (X1 m c) :=
  (W4_of_ne m ρ c main_v6 (by decide)).trans (W3_v6 m ρ c)
theorem W4_arg3 (c : Dev nD) : W4 m ρ c (Proc.devRef .tc main_arg3) = X3 m c :=
  (W4_of_ne m ρ c main_arg3 (by decide)).trans (W3_arg3 m ρ c)
theorem W4_arg4 (c : Dev nD) : W4 m ρ c (Proc.devRef .tc main_arg4) = X4 m c :=
  (W4_of_ne m ρ c main_arg4 (by decide)).trans (W3_arg4 m ρ c)
theorem W4_arg5 (c : Dev nD) : W4 m ρ c (Proc.devRef .tc main_arg5) = X5 m c :=
  (W4_of_ne m ρ c main_arg5 (by decide)).trans (W3_arg5 m ρ c)
theorem W4_arg6 (c : Dev nD) : W4 m ρ c (Proc.devRef .tc main_arg6) = X6 m c :=
  (W4_of_ne m ρ c main_arg6 (by decide)).trans (W3_arg6 m ρ c)
theorem W4_arg7 (c : Dev nD) : W4 m ρ c (Proc.devRef .tc main_arg7) = X7 m c :=
  (W4_of_ne m ρ c main_arg7 (by decide)).trans (W3_arg7 m ρ c)

/-! ## The second stretch

It gathers the scaled features along the sources and scatter-adds them at the targets, and reshapes the first bias to
a row. -/

/-- The first aggregation. -/
theorem W5_v26 (c : Dev nD) : W5 m ρ c (Proc.devRef .tc main_v26) = kA1 (X0 m c) (X1 m c) (X2 m c) := by
  have e : W5 m ρ c (Proc.devRef .tc main_v26)
      = Cert.Graph.aggKer100 (W4 m ρ c (Proc.devRef .tc main_v16)) (W4 m ρ c (Proc.devRef .tc main_v5)) (W4 m ρ c (Proc.devRef .tc main_v6)) := by
    dsimp only [W5, hostOps1]
    after_results
    rfl
  rw [e, W4_v16, W4_v5, W4_v6]
  rfl
/-- The first bias as a row. -/
theorem W5_v27 (c : Dev nD) : W5 m ρ c (Proc.devRef .tc main_v27) = shapeCast S1x100 (X3 m c) shapeCasts_S100_S1x100 := by
  have e : W5 m ρ c (Proc.devRef .tc main_v27) = shapeCast S1x100 (W4 m ρ c (Proc.devRef .tc main_arg3)) shapeCasts_S100_S1x100 := by
    dsimp only [W5, hostOps1]
    after_results
    rfl
  rw [e, W4_arg3]
theorem W5_v15 (c : Dev nD) : W5 m ρ c (Proc.devRef .tc main_v15) = kdis (X1 m c) := by
  have e : W5 m ρ c (Proc.devRef .tc main_v15) = W4 m ρ c (Proc.devRef .tc main_v15) := by
    dsimp only [W5, hostOps1]
    after_results
  rw [e, W4_v15]
theorem W5_v5 (c : Dev nD) : W5 m ρ c (Proc.devRef .tc main_v5) = Cert.Graph.rowOf (X1 m c) := by
  have e : W5 m ρ c (Proc.devRef .tc main_v5) = W4 m ρ c (Proc.devRef .tc main_v5) := by
    dsimp only [W5, hostOps1]
    after_results
  rw [e, W4_v5]
theorem W5_v6 (c : Dev nD) : W5 m ρ c (Proc.devRef .tc main_v6) = Cert.Graph.colOf (X1 m c) := by
  have e : W5 m ρ c (Proc.devRef .tc main_v6) = W4 m ρ c (Proc.devRef .tc main_v6) := by
    dsimp only [W5, hostOps1]
    after_results
  rw [e, W4_v6]
theorem W5_arg4 (c : Dev nD) : W5 m ρ c (Proc.devRef .tc main_arg4) = X4 m c := by
  have e : W5 m ρ c (Proc.devRef .tc main_arg4) = W4 m ρ c (Proc.devRef .tc main_arg4) := by
    dsimp only [W5, hostOps1]
    after_results
  rw [e, W4_arg4]
theorem W5_arg5 (c : Dev nD) : W5 m ρ c (Proc.devRef .tc main_arg5) = X5 m c := by
  have e : W5 m ρ c (Proc.devRef .tc main_arg5) = W4 m ρ c (Proc.devRef .tc main_arg5) := by
    dsimp only [W5, hostOps1]
    after_results
  rw [e, W4_arg5]
theorem W5_arg6 (c : Dev nD) : W5 m ρ c (Proc.devRef .tc main_arg6) = X6 m c := by
  have e : W5 m ρ c (Proc.devRef .tc main_arg6) = W4 m ρ c (Proc.devRef .tc main_arg6) := by
    dsimp only [W5, hostOps1]
    after_results
  rw [e, W4_arg6]
theorem W5_arg7 (c : Dev nD) : W5 m ρ c (Proc.devRef .tc main_arg7) = X7 m c := by
  have e : W5 m ρ c (Proc.devRef .tc main_arg7) = W4 m ρ c (Proc.devRef .tc main_arg7) := by
    dsimp only [W5, hostOps1]
    after_results
  rw [e, W4_arg7]

/-! ## The second pipeline

Its arrays are the first aggregation, the column, the first bias's row and the second weights (inputs) and the second
layer's scaled features (output). -/

/-- The second pipeline's output. -/
theorem W6_v28 (c : Dev nD) : W6 m ρ c (Proc.devRef .tc main_v28) = kY2 (X0 m c) (X1 m c) (X2 m c) (X3 m c) (X4 m c) := by
  refine (W6_arr m ρ c 4).trans ((final1 (V5 m ρ) c).trans ?_)
  unfold kY2
  exact congr (congr (congr (congrArg G1 (W5_v26 m ρ c)) (W5_v15 m ρ c)) (W5_v27 m ρ c)) (W5_arg4 m ρ c)
/-- The column is an input array: unchanged. -/
theorem W6_v15 (c : Dev nD) : W6 m ρ c (Proc.devRef .tc main_v15) = kdis (X1 m c) :=
  ((W6_arr m ρ c 1).trans (((dat1 (V5 m ρ) c).arrAt_in 1 rfl _).trans (A_eq1 (V5 m ρ) c 1))).trans (W5_v15 m ρ c)
theorem W6_v5 (c : Dev nD) : W6 m ρ c (Proc.devRef .tc main_v5) = Cert.Graph.rowOf (X1 m c) :=
  (W6_of_ne m ρ c main_v5 (by decide)).trans (W5_v5 m ρ c)
theorem W6_v6 (c : Dev nD) : W6 m ρ c (Proc.devRef .tc main_v6) = Cert.Graph.colOf (X1 m c) :=
  (W6_of_ne m ρ c main_v6 (by decide)).trans (W5_v6 m ρ c)
theorem W6_arg5 (c : Dev nD) : W6 m ρ c (Proc.devRef .tc main_arg5) = X5 m c :=
  (W6_of_ne m ρ c main_arg5 (by decide)).trans (W5_arg5 m ρ c)
theorem W6_arg6 (c : Dev nD) : W6 m ρ c (Proc.devRef .tc main_arg6) = X6 m c :=
  (W6_of_ne m ρ c main_arg6 (by decide)).trans (W5_arg6 m ρ c)
theorem W6_arg7 (c : Dev nD) : W6 m ρ c (Proc.devRef .tc main_arg7) = X7 m c :=
  (W6_of_ne m ρ c main_arg7 (by decide)).trans (W5_arg7 m ρ c)

/-! ## The third stretch

It aggregates the second layer's scaled features over the same edges and reshapes the two remaining biases to rows. -/

/-- The second aggregation. -/
theorem W7_v38 (c : Dev nD) : W7 m ρ c (Proc.devRef .tc main_v38) = kA2 (X0 m c) (X1 m c) (X2 m c) (X3 m c) (X4 m c) := by
  have e : W7 m ρ c (Proc.devRef .tc main_v38)
      = Cert.Graph.aggKer200 (W6 m ρ c (Proc.devRef .tc main_v28)) (W6 m ρ c (Proc.devRef .tc main_v5)) (W6 m ρ c (Proc.devRef .tc main_v6)) := by
    dsimp only [W7, hostOps2]
    after_results
    rfl
  rw [e, W6_v28, W6_v5, W6_v6]
  rfl
/-- The second bias as a row. -/
theorem W7_v39 (c : Dev nD) : W7 m ρ c (Proc.devRef .tc main_v39) = shapeCast S1x200 (X5 m c) shapeCasts_S200_S1x200 := by
  have e : W7 m ρ c (Proc.devRef .tc main_v39) = shapeCast S1x200 (W6 m ρ c (Proc.devRef .tc main_arg5)) shapeCasts_S200_S1x200 := by
    dsimp only [W7, hostOps2]
    after_results
    rfl
  rw [e, W6_arg5]
/-- The head's bias as a row. -/
theorem W7_v40 (c : Dev nD) : W7 m ρ c (Proc.devRef .tc main_v40) = shapeCast S1x16 (X7 m c) shapeCasts_S16_S1x16 := by
  have e : W7 m ρ c (Proc.devRef .tc main_v40) = shapeCast S1x16 (W6 m ρ c (Proc.devRef .tc main_arg7)) shapeCasts_S16_S1x16 := by
    dsimp only [W7, hostOps2]
    after_results
    rfl
  rw [e, W6_arg7]
theorem W7_v15 (c : Dev nD) : W7 m ρ c (Proc.devRef .tc main_v15) = kdis (X1 m c) := by
  have e : W7 m ρ c (Proc.devRef .tc main_v15) = W6 m ρ c (Proc.devRef .tc main_v15) := by
    dsimp only [W7, hostOps2]
    after_results
  rw [e, W6_v15]
theorem W7_arg6 (c : Dev nD) : W7 m ρ c (Proc.devRef .tc main_arg6) = X6 m c := by
  have e : W7 m ρ c (Proc.devRef .tc main_arg6) = W6 m ρ c (Proc.devRef .tc main_arg6) := by
    dsimp only [W7, hostOps2]
    after_results
  rw [e, W6_arg6]

/-! ## The third pipeline and the result -/

/-- The third pipeline's output is the kernel's value as one function of its arguments. -/
theorem W8_v41 (c : Dev nD) : W8 m ρ c (Proc.devRef .tc main_v41)
    = kOut (X0 m c) (X1 m c) (X2 m c) (X3 m c) (X4 m c) (X5 m c) (X6 m c) (X7 m c) := by
  refine (W8_arr m ρ c 5).trans ((final2 (V7 m ρ) c).trans ?_)
  unfold kOut
  exact congr (congr (congr (congr (congrArg G2 (W7_v38 m ρ c)) (W7_v15 m ρ c)) (W7_v39 m ρ c)) (W7_arg6 m ρ c))
    (W7_v40 m ρ c)

/-- The same with the arguments spelt as reads of the launch memory. -/
theorem W8_out (c : Dev nD) : W8 m ρ c (Proc.devRef .tc main_v41)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  W8_v41 m ρ c
end Cert.KernelIdeal.Run

end
-- ==== Proof.RefValue.lean ====
/-
  The reference program's value, index by index.

  The reference is two graph-convolution layers followed by a linear head. Its dense stages are read here at an
  index as plain finite sums over the contracted axis:

  * `v4_at`  : (X · W1)[p, q] = Σ_k X[p, k] · W1[k, q];
  * `v48_at` : (relu(A1 + b1) · W2)[p, q] = Σ_k max (A1[p, k] + b1[k]) 0 · W2[k, q], where A1 is the first layer's
    aggregation;
  * `v95_at` : (relu(A2 + b2) · Wfc + bfc)[p, q] = (Σ_k max (A2[p, k] + b2[k]) 0 · Wfc[k, q]) + bfc[q], where A2 is
    the second layer's aggregation.

  Its graph stages are the shared graph operations of their operands: the inverse square root of the in-degree
  (`v15_eq`) and the two normalised aggregations (`v43_eq`, `v87_eq`). The second layer rebuilds the edge lists and the
  degree from the same edge-index argument; those rebuilt terms are the first layer's terms.
-/
import proofs.«118826_j83958020702803_2_alg».proof.Proof.RefRead
import proofs.«118826_j83958020702803_2_alg».proof.Proof.GraphOps

noncomputable section

open scoped BigOperators

namespace Cert.RefValue

open Idealize.ShloMosaic Idealize.ShloMosaic.ValueIdx Cert.Graph Cert.ReferenceIdeal Cert.ReferenceIdeal.Gen
  Cert.ReferenceIdeal.ReadP

/-! ## The dense stages at an index -/

/-- The first layer's feature transform at `(p, q)`: the row `p` of the features against the column `q` of the weights. -/
theorem v4_at (x0 : (⟨S50000x128, .f32⟩ : BufTy).Contents (Elt Ideal))
    (x2 : (⟨S128x100, .f32⟩ : BufTy).Contents (Elt Ideal)) (p : Fin 50000) (q : Fin 100) :
    val_main_v4 (F := Ideal) x0 x2 (ix2 p q) = ∑ k : Fin 128, x0 (ix2 p k) * x2 (ix2 k q) := by
  rw [val_main_v4_apply]
  refine Finset.sum_congr rfl fun k _ => ?_
  have el : lidx_main_v4 (ix2 p q) k = ix2 p k :=
    funext fun a => by match a with | ⟨0, _⟩ => rfl | ⟨1, _⟩ => rfl
  have er : ridx_main_v4 (ix2 p q) k = ix2 k q :=
    funext fun a => by match a with | ⟨0, _⟩ => rfl | ⟨1, _⟩ => rfl
  rw [el, er]

/-- The second layer's feature transform at `(p, q)`: the rectified, biased first aggregation's row `p` against the
    column `q` of the second weights. -/
theorem v48_at (x0 : (⟨S50000x128, .f32⟩ : BufTy).Contents (Elt Ideal))
    (x1 : (⟨S2x800000, .i32⟩ : BufTy).Contents (Elt Ideal))
    (x2 : (⟨S128x100, .f32⟩ : BufTy).Contents (Elt Ideal))
    (x3 : (⟨S100, .f32⟩ : BufTy).Contents (Elt Ideal))
    (x4 : (⟨S100x200, .f32⟩ : BufTy).Contents (Elt Ideal)) (p : Fin 50000) (q : Fin 200) :
    val_main_v48 (F := Ideal) x0 x1 x2 x3 x4 (ix2 p q)
      = ∑ k : Fin 100, max (val_main_v43 (F := Ideal) x0 x1 x2 (ix2 p k) + x3 (ix1 k))
          (Ideal.ofBits .f32 0x00000000#32) * x4 (ix2 k q) := by
  rw [val_main_v48_apply]
  refine Finset.sum_congr rfl fun k _ => ?_
  have el : lidx_main_v48 (ix2 p q) k = ix2 p k :=
    funext fun a => by match a with | ⟨0, _⟩ => rfl | ⟨1, _⟩ => rfl
  have er : ridx_main_v48 (ix2 p q) k = ix2 k q :=
    funext fun a => by match a with | ⟨0, _⟩ => rfl | ⟨1, _⟩ => rfl
  have eb : idx_main_v44 (idx_main_v45 (ix2 p k)) = ix1 k :=
    funext fun a => by match a with | ⟨0, _⟩ => rfl
  rw [el, er, val_main_v47_apply, val_main_v46_apply, val_main_v45_apply, val_main_v44_apply, eb,
    val_main_call1_v0_apply, val_main_call1_cst_apply]
  simp only [Ideal.addf_def, Ideal.maximumf_def, Ideal.ofBits_def]

/-- The head at `(p, q)`: the rectified, biased second aggregation's row `p` against the column `q` of the head's
    weights, plus the head's bias. -/
theorem v95_at (x0 : (⟨S50000x128, .f32⟩ : BufTy).Contents (Elt Ideal))
    (x1 : (⟨S2x800000, .i32⟩ : BufTy).Contents (Elt Ideal))
    (x2 : (⟨S128x100, .f32⟩ : BufTy).Contents (Elt Ideal))
    (x3 : (⟨S100, .f32⟩ : BufTy).Contents (Elt Ideal))
    (x4 : (⟨S100x200, .f32⟩ : BufTy).Contents (Elt Ideal))
    (x5 : (⟨S200, .f32⟩ : BufTy).Contents (Elt Ideal))
    (x6 : (⟨S200x16, .f32⟩ : BufTy).Contents (Elt Ideal))
    (x7 : (⟨S16, .f32⟩ : BufTy).Contents (Elt Ideal)) (p : Fin 50000) (q : Fin 16) :
    val_main_v95 (F := Ideal) x0 x1 x2 x3 x4 x5 x6 x7 (ix2 p q)
      = (∑ k : Fin 200, max (val_main_v87 (F := Ideal) x0 x1 x2 x3 x4 (ix2 p k) + x5 (ix1 k))
          (Ideal.ofBits .f32 0x00000000#32) * x6 (ix2 k q)) + x7 (ix1 q) := by
  have ec : idx_main_v93 (idx_main_v94 (ix2 p q)) = ix1 q :=
    funext fun a => by match a with | ⟨0, _⟩ => rfl
  rw [val_main_v95_apply, val_main_v92_apply, val_main_v94_apply, val_main_v93_apply, ec]
  simp only [Ideal.addf_def]
  refine congrArg (fun t => t + x7 (ix1 q)) ?_
  refine Finset.sum_congr rfl fun k _ => ?_
  have el : lidx_main_v92 (ix2 p q) k = ix2 p k :=
    funext fun a => by match a with | ⟨0, _⟩ => rfl | ⟨1, _⟩ => rfl
  have er : ridx_main_v92 (ix2 p q) k = ix2 k q :=
    funext fun a => by match a with | ⟨0, _⟩ => rfl | ⟨1, _⟩ => rfl
  have eb : idx_main_v88 (idx_main_v89 (ix2 p k)) = ix1 k :=
    funext fun a => by match a with | ⟨0, _⟩ => rfl
  rw [el, er, val_main_v91_apply, val_main_v90_apply, val_main_v89_apply, val_main_v88_apply, eb,
    val_main_call3_v0_apply, val_main_call3_cst_apply]
  simp only [Ideal.addf_def, Ideal.maximumf_def, Ideal.ofBits_def]

/-! ## The graph stages are the shared graph operations -/

/-- The normalising vector is `deg^(-1/2)` of the target list's in-degree. -/
theorem v15_eq (x1 : (⟨S2x800000, .i32⟩ : BufTy).Contents (Elt Ideal)) :
    val_main_v15 (F := Ideal) x1 = disOf (val_main_v7 (F := Ideal) x1) := by
  simp only [val_main_v15, val_main_v13, val_main_v14, val_main_v12, val_main_v11, val_main_v10, val_main_v9,
    val_main_v8, val_main_cst, val_main_cst_0, val_main_cst_1, val_main_cst_2, val_main_call0_v0, val_main_call0_v1,
    disOf, degOf, colIdx]

/-- The first layer's aggregation is the normalised aggregation of the transformed features along the edge lists. -/
theorem v43_eq (x0 : (⟨S50000x128, .f32⟩ : BufTy).Contents (Elt Ideal))
    (x1 : (⟨S2x800000, .i32⟩ : BufTy).Contents (Elt Ideal))
    (x2 : (⟨S128x100, .f32⟩ : BufTy).Contents (Elt Ideal)) :
    val_main_v43 (F := Ideal) x0 x1 x2
      = aggRef100 (val_main_v4 (F := Ideal) x0 x2) (val_main_v15 (F := Ideal) x1) (val_main_v6 (F := Ideal) x1)
          (val_main_v7 (F := Ideal) x1) := by
  simp only [val_main_v43, val_main_v42, val_main_v41, val_main_cst_8, val_main_v40, val_main_v39, val_main_v38,
    val_main_v37, val_main_v36, val_main_v35, val_main_v34, val_main_v33, val_main_c_7, val_main_v32, val_main_v31,
    val_main_c_6, val_main_v30, val_main_v29, val_main_v28, val_main_v27, val_main_v26, val_main_v25, val_main_c_5,
    val_main_v24, val_main_v23, val_main_c_4, val_main_v22, val_main_v21, val_main_v20, val_main_v19, val_main_v18,
    val_main_c_3, val_main_v17, val_main_v16, val_main_c,
    aggRef100, normOf, wrapIdx, colIdx]

/-- The second layer rebuilds the node numbering; it is the first layer's. -/
theorem v49_eq : val_main_v49 (F := Ideal) = val_main_v5 (F := Ideal) := rfl

/-- The second layer's source list is the first layer's. -/
theorem v50_eq (x1 : (⟨S2x800000, .i32⟩ : BufTy).Contents (Elt Ideal)) :
    val_main_v50 (F := Ideal) x1 = val_main_v6 (F := Ideal) x1 := by
  simp only [val_main_v50, val_main_v6, v49_eq]

/-- The second layer's target list is the first layer's. -/
theorem v51_eq (x1 : (⟨S2x800000, .i32⟩ : BufTy).Contents (Elt Ideal)) :
    val_main_v51 (F := Ideal) x1 = val_main_v7 (F := Ideal) x1 := by
  simp only [val_main_v51, val_main_v7, v49_eq]

/-- The second layer's normalising vector is the first layer's. -/
theorem v59_eq (x1 : (⟨S2x800000, .i32⟩ : BufTy).Contents (Elt Ideal)) :
    val_main_v59 (F := Ideal) x1 = val_main_v15 (F := Ideal) x1 := by
  simp only [val_main_v59, val_main_v57, val_main_v58, val_main_v56, val_main_v55, val_main_v54, val_main_v53,
    val_main_v52, val_main_cst_9, val_main_cst_10, val_main_cst_11, val_main_cst_12, val_main_call2_v0,
    val_main_call2_v1, v51_eq,
    val_main_v15, val_main_v13, val_main_v14, val_main_v12, val_main_v11, val_main_v10, val_main_v9,
    val_main_v8, val_main_cst, val_main_cst_0, val_main_cst_1, val_main_cst_2, val_main_call0_v0, val_main_call0_v1]

/-- The second layer's aggregation is the normalised aggregation of its transformed features along the same edge
    lists, with the same normalising vector. -/
theorem v87_eq (x0 : (⟨S50000x128, .f32⟩ : BufTy).Contents (Elt Ideal))
    (x1 : (⟨S2x800000, .i32⟩ : BufTy).Contents (Elt Ideal))
    (x2 : (⟨S128x100, .f32⟩ : BufTy).Contents (Elt Ideal))
    (x3 : (⟨S100, .f32⟩ : BufTy).Contents (Elt Ideal))
    (x4 : (⟨S100x200, .f32⟩ : BufTy).Contents (Elt Ideal)) :
    val_main_v87 (F := Ideal) x0 x1 x2 x3 x4
      = aggRef200 (val_main_v48 (F := Ideal) x0 x1 x2 x3 x4) (val_main_v15 (F := Ideal) x1)
          (val_main_v6 (F := Ideal) x1) (val_main_v7 (F := Ideal) x1) := by
  simp only [val_main_v87, val_main_v86, val_main_v85, val_main_cst_19, val_main_v84, val_main_v83, val_main_v82,
    val_main_v81, val_main_v80, val_main_v79, val_main_v78, val_main_v77, val_main_c_18, val_main_v76, val_main_v75,
    val_main_c_17, val_main_v74, val_main_v73, val_main_v72, val_main_v71, val_main_v70, val_main_v69, val_main_c_16,
    val_main_v68, val_main_v67, val_main_c_15, val_main_v66, val_main_v65, val_main_v64, val_main_v63, val_main_v62,
    val_main_c_14, val_main_v61, val_main_v60, val_main_c_13, v50_eq, v51_eq, v59_eq,
    aggRef200, normOf, wrapIdx, colIdx]

end Cert.RefValue

end
-- ==== Proof.Layer.lean ====
/-
  The graph-aggregation law of a GCN layer, over the extended reals.

  A layer aggregates over the edges e whose target is node n. One program scales the source rows first and the
  aggregate afterwards, d[n] · Σ_{e : col e = n} (X[row e] · d[row e]); the other scales every message,
  Σ_{e : col e = n} X[row e] · (d[row e] · d[col e]). They agree because d[n] is a nonnegative finite number,
  and multiplication by such a number distributes over every extended-real sum (no finiteness of X is needed),
  and because an update the scatter keeps has its target word in [0, 50000), where shifting negative words and
  clamping the start index are both the identity, so d[col e] = d[n].

  The file first reads the two gathers and the two scatters at an index, for any node count N, edge count E and
  row width H; then it states the distributivity over a finite sum; then the word facts; then the law at any
  width and at the two widths of the network.
-/
import proofs.«118826_j83958020702803_2_alg».proof.Proof.GraphOps
import Idealize.ShloMosaic.Lib.ValueIdx
import Idealize.ShloMosaic.Lib.IdealHost
import Idealize.ShloMosaic.Lib.Pipeline.Value

noncomputable section

open scoped BigOperators

namespace Cert.Layer

open Idealize.ShloMosaic Idealize.ShloMosaic.ValueIdx Cert.Graph Cert.ReferenceIdeal Cert.ReferenceIdeal.Gen

/-! ## Multiplication by a nonnegative finite number distributes over a finite sum -/

/-- On the extended reals, a nonnegative finite factor goes inside any finite sum. -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- Scaling the aggregate of pre-scaled messages is aggregating the messages scaled on both sides, when the
    second scale agrees with the outer factor on the edges aggregated. -/
theorem scale_sum {ι : Type} (c : EReal) (hc : 0 ≤ c) (hc' : c ≠ ⊤) (S : Finset ι) (a r c' : ι → EReal)
    (h : ∀ j ∈ S, c' j = c) :
    c * (0 + ∑ j ∈ S, a j * r j) = 0 + ∑ j ∈ S, a j * (r j * c' j) := by
  rw [zero_add, zero_add, mul_sum_of_nonneg_of_ne_top c hc hc']
  refine Finset.sum_congr rfl fun j hj => ?_
  rw [h j hj, mul_comm c, mul_assoc]

/-! ## The gathers read at an index -/

/-- The dimension numbers of a gather of single elements of a flat array [N] at a column [E, 1] of start indices. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather read at e: the operand at the start index idx[e, 0], read signed and clamped into [0, N − 1]. -/
theorem gather1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0 + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a gather of whole rows of an array [N, H] at a column [E, 1] of start indices. -/
abbrev gDims2 (N E H : Nat)
    (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- That gather read at (e, q): column q of the row at the start index idx[e, 0], read signed and clamped. -/
theorem gather2_apply {α : Type} {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (e : Fin E) (q : Fin H) :
    Host.gather (gDims2 N E H wf) x idx (ix2 e q)
      = x (ix2 ⟨min (idx (ix2 e (0 : Fin 1))).toInt.toNat (N - 1), by omega⟩ q) := by
  have h0 : ((gDims2 N E H wf).operandIdx (ix2 e q) idx (0 : Fin 2)).val = min (idx (ix2 e (0 : Fin 1))).toInt.toNat (N - 1) := by
    show (gDims2 N E H wf).start (ix2 e q) idx 0 + (gDims2 N E H wf).batchCoord (ix2 e q) 0
      + (gDims2 N E H wf).offCoord (ix2 e q) 0 = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (gDims2 N E H wf).startIndexMap from List.mem_singleton.mpr rfl)]
    have hsi : (gDims2 N E H wf).siIdx (ix2 e q) ⟨List.idxOf (0 : Fin 2) (gDims2 N E H wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((gDims2 N E H wf).operandIdx (ix2 e q) idx (1 : Fin 2)).val = q.val := by
    show (gDims2 N E H wf).start (ix2 e q) idx 1 + (gDims2 N E H wf).batchCoord (ix2 e q) 1
      + (gDims2 N E H wf).offCoord (ix2 e q) 1 = _
    rw [GatherDims.batchCoord_eq_zero _ _ _ List.not_mem_nil, Nat.add_zero]
    have hs : (gDims2 N E H wf).start (ix2 e q) idx 1 = 0 := by
      unfold GatherDims.start
      exact dif_neg (show ¬ ((1 : Fin 2) ∈ ([0] : List (Fin 2))) by decide)
    rw [hs, Nat.zero_add]
    rfl
  unfold Host.gather
  congr 1
  funext a
  refine Fin.ext ?_
  match a with
  | ⟨0, _⟩ => exact h0
  | ⟨1, _⟩ => exact h1

/-! ## The scatters read at an index: where a kept update lands -/

/-- The dimension numbers of a scatter of single elements into a flat array [N] at a column [E, 1] of targets. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An update of that scatter which lands on node n has the target word n, read signed. -/
theorem kept1 {N E w : Nat} (wf : ScatterDims.WF ⟨1, ![N]⟩ ⟨2, ![E, 1]⟩ ⟨1, ![E]⟩ [] [0] [0] 1)
    (idx : IVec ⟨2, ![E, 1]⟩ w) (e : Fin E) (n : Fin N)
    (h : (sDims1 N E wf).resultIdx? (ix1 e) idx = some (ix1 n)) :
    (idx (ix2 e (0 : Fin 1))).toInt = (n.val : Int) := by
  have hs : (sDims1 N E wf).start (ix1 e) idx 0 = (idx (ix2 e (0 : Fin 1))).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (sDims1 N E wf).window (ix1 e) 0 = 0 := by
    unfold ScatterDims.window
    exact dif_neg (show ¬ ((0 : Fin 1) ∈ (List.finRange 1).filter (fun a => a ∉ ([0] : List (Fin 1)))) by decide)
  unfold ScatterDims.resultIdx? at h
  split at h
  · rename_i hall
    have h0 := congrArg (fun i : (⟨1, ![N]⟩ : Shape).Idx => (i 0).val) (Option.some.inj h)
    have hnn := (hall 0).1
    simp only [hs, hw] at h0 hnn
    change ((idx (ix2 e (0 : Fin 1))).toInt + ((0 : Nat) : Int)).toNat = n.val at h0
    omega
  · exact absurd h (by simp)

/-- The dimension numbers of a scatter of whole rows into an array [N, H] at a column [E, 1] of targets. -/
abbrev sDims2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf

/-- An update (e, q') of that scatter which lands on (n, q) has the target word n, read signed, and q' = q. -/
theorem kept2 {N E H w : Nat} (wf : ScatterDims.WF ⟨2, ![N, H]⟩ ⟨2, ![E, 1]⟩ ⟨2, ![E, H]⟩ [1] [0] [0] 1)
    (idx : IVec ⟨2, ![E, 1]⟩ w) (e : Fin E) (q' : Fin H) (n : Fin N) (q : Fin H)
    (h : (sDims2 N E H wf).resultIdx? (ix2 e q') idx = some (ix2 n q)) :
    (idx (ix2 e (0 : Fin 1))).toInt = (n.val : Int) ∧ q' = q := by
  have hs : (sDims2 N E H wf).start (ix2 e q') idx 0 = (idx (ix2 e (0 : Fin 1))).toInt := by
    unfold ScatterDims.start
    rw [dif_pos (show (0 : Fin 2) ∈ (sDims2 N E H wf).scatterDimsToOperandDims from List.mem_singleton.mpr rfl)]
    have hsi : (sDims2 N E H wf).siIdx (ix2 e q') ⟨List.idxOf (0 : Fin 2) (sDims2 N E H wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (sDims2 N E H wf).window (ix2 e q') 0 = 0 := by
    unfold ScatterDims.window
    exact dif_neg (show ¬ ((0 : Fin 2) ∈ (List.finRange 2).filter (fun a => a ∉ ([0] : List (Fin 2)))) by decide)
  have hs1 : (sDims2 N E H wf).start (ix2 e q') idx 1 = 0 := by
    unfold ScatterDims.start
    exact dif_neg (show ¬ ((1 : Fin 2) ∈ ([0] : List (Fin 2))) by decide)
  have hw1 : (sDims2 N E H wf).window (ix2 e q') 1 = q'.val := by
    unfold ScatterDims.window
    have hm : (1 : Fin 2) ∈ (sDims2 N E H wf).sKept :=
      (show (1 : Fin 2) ∈ (List.finRange 2).filter (fun a => a ∉ ([0] : List (Fin 2))) by decide)
    rw [dif_pos hm]
    rfl
  unfold ScatterDims.resultIdx? at h
  split at h
  · rename_i hall
    have h0 := congrArg (fun i : (⟨2, ![N, H]⟩ : Shape).Idx => (i 0).val) (Option.some.inj h)
    have h1 := congrArg (fun i : (⟨2, ![N, H]⟩ : Shape).Idx => (i 1).val) (Option.some.inj h)
    have hnn := (hall 0).1
    simp only [hs, hw, hs1, hw1] at h0 h1 hnn
    change ((idx (ix2 e (0 : Fin 1))).toInt + ((0 : Nat) : Int)).toNat = n.val at h0
    change ((0 : Int) + ((q'.val : Nat) : Int)).toNat = q.val at h1
    refine ⟨by omega, Fin.ext (by omega)⟩
  · exact absurd h (by simp)

/-! ## The index arrays read at an index, and the words -/

/-- A start word: a negative word shifted by the number of nodes. -/
def wrapW (v : BitVec 32) : BitVec 32 :=
  Scalar.select (IntOp.cmpi .slt v 0#32) (IntOp.addi v 50000#32) v

/-- The start-index column read at edge e is the edge's word, wrapped. -/
theorem wrapIdx_apply (v : IVec S850000 32) (e : Fin 850000) : wrapIdx v (ix2 e (0 : Fin 1)) = wrapW (v (ix1 e)) := by
  unfold wrapIdx
  rw [broadcastInDim_apply _ _ _ (ix2 e (0 : Fin 1)) (ix1 e) (by
    intro a
    obtain rfl : a = 0 := Subsingleton.elim _ _
    rfl)]
  rfl

/-- The scatter-index column read at edge e is the edge's word. -/
theorem colIdx_apply (v : IVec S850000 32) (e : Fin 850000) : colIdx v (ix2 e (0 : Fin 1)) = v (ix1 e) := by
  unfold colIdx
  rw [broadcastInDim_apply _ _ _ (ix2 e (0 : Fin 1)) (ix1 e) (by
    intro a
    obtain rfl : a = 0 := Subsingleton.elim _ _
    rfl)]

/-- A word that reads as a nonnegative integer is not shifted. -/
theorem wrapW_of_nonneg (v : BitVec 32) (h : 0 ≤ v.toInt) : wrapW v = v := by
  have hs : v.slt 0#32 = false := by
    rw [BitVec.slt, BitVec.toInt_zero]
    exact decide_eq_false (by omega)
  unfold wrapW IntOp.cmpi
  simp only [hs]
  exact select_zero _ _

/-- The node a start word reads: the wrapped word, read signed and clamped into the node range. -/
def srcOf (v : IVec S850000 32) (e : Fin 850000) : Fin 50000 :=
  ⟨min (wrapW (v (ix1 e))).toInt.toNat 49999, by omega⟩

/-- A target word that is node n reads node n. -/
theorem srcOf_of_kept (v : IVec S850000 32) (e : Fin 850000) (n : Fin 50000) (h : (v (ix1 e)).toInt = (n.val : Int)) :
    srcOf v e = n := by
  refine Fin.ext ?_
  show min (wrapW (v (ix1 e))).toInt.toNat 49999 = n.val
  rw [wrapW_of_nonneg _ (by omega), h]
  have := n.isLt
  omega

/-! ## The gathers of this graph read at an index -/

/-- A row gather through wrapped start indices reads the row of the node the word names. -/
theorem gatherRow {α : Type} {H : Nat}
    (wfg : GatherDims.WF ⟨2, ![50000, H]⟩ ⟨2, ![850000, 1]⟩ ⟨2, ![850000, H]⟩ [1] [0] [] [0] [] 1 ![1, H])
    (x : (⟨2, ![50000, H]⟩ : Shape).Idx → α) (v : IVec S850000 32) (e : Fin 850000) (q : Fin H) :
    Host.gather (gDims2 50000 850000 H wfg) x (wrapIdx v) (ix2 e q) = x (ix2 (srcOf v e) q) := by
  rw [gather2_apply (by decide) wfg x (wrapIdx v) e q]
  have hi : (⟨min (wrapIdx v (ix2 e (0 : Fin 1))).toInt.toNat (50000 - 1), by omega⟩ : Fin 50000) = srcOf v e :=
    Fin.ext (by
      show min (wrapIdx v (ix2 e (0 : Fin 1))).toInt.toNat (50000 - 1) = min (wrapW (v (ix1 e))).toInt.toNat 49999
      rw [wrapIdx_apply])
  rw [hi]

/-- An element gather through wrapped start indices reads the node the word names. -/
theorem gatherNode {α : Type}
    (wfg : GatherDims.WF ⟨1, ![50000]⟩ ⟨2, ![850000, 1]⟩ ⟨1, ![850000]⟩ [] [0] [] [0] [] 1 ![1])
    (x : (⟨1, ![50000]⟩ : Shape).Idx → α) (v : IVec S850000 32) (e : Fin 850000) :
    Host.gather (gDims1 50000 850000 wfg) x (wrapIdx v) (ix1 e) = x (ix1 (srcOf v e)) := by
  rw [gather1_apply (by decide) wfg x (wrapIdx v) e]
  have hi : (⟨min (wrapIdx v (ix2 e (0 : Fin 1))).toInt.toNat (50000 - 1), by omega⟩ : Fin 50000) = srcOf v e :=
    Fin.ext (by
      show min (wrapIdx v (ix2 e (0 : Fin 1))).toInt.toNat (50000 - 1) = min (wrapW (v (ix1 e))).toInt.toNat 49999
      rw [wrapIdx_apply])
  rw [hi]

/-- The edge weight of edge e is d[row e] · d[col e]. -/
theorem normOf_apply (dv : FVec Ideal S50000 .f32) (row col : IVec S850000 32) (e : Fin 850000) :
    normOf dv row col (ix1 e) = dv (ix1 (srcOf row e)) * dv (ix1 (srcOf col e)) := by
  unfold normOf
  rw [mulf_apply]
  show Host.gather (gDims1 50000 850000 gather_S50000_S850000x1_S850000_n_0_n_n_0_1_1_wf) dv (wrapIdx row) (ix1 e)
    * Host.gather (gDims1 50000 850000 gather_S50000_S850000x1_S850000_n_0_n_n_0_1_1_wf) dv (wrapIdx col) (ix1 e) = _
  rw [gatherNode, gatherNode]

/-- The host's scatter-add at the ideal instance: the operand element plus the sum of the updates that land on it. -/
theorem scatterAdd_apply {s si u : Shape} {w : Nat} (d : ScatterDims s si u) (x : FVec Ideal s .f32) (idx : IVec si w)
    (upd : FVec Ideal u .f32) (i : s.Idx) :
    Host.scatterAdd d x idx upd i = Ideal.hostScatterAdd d x idx upd i := rfl

/-- The zero scalar broadcast to any shape reads zero. -/
theorem zeros_apply {T : Shape} (h : S_.BroadcastsInDim T ![]) (i : T.Idx) :
    broadcastInDim T ![] h (constant (F := Ideal) S_ .f32 0x00000000#32) i = (0 : EReal) := by
  rw [broadcastInDim_scalar_apply, constant_apply, Ideal.ofBits_zero_f32]

/-! ## The aggregation law at any row width -/

/-- The law for any scatter-add from zero: if the kept updates of one program are a·r and those of the other
    a·(r·c'), with c' equal to the nonnegative finite c on every update that lands on i, then c times the first
    result at i is the second result at i. -/
theorem scatter_scale {s si u : Shape} {w : Nat} (d : ScatterDims s si u) (idx : IVec si w) (i : s.Idx)
    (c : EReal) (hc : 0 ≤ c) (hc' : c ≠ ⊤) (x : s.Idx → EReal) (hx : x i = 0) (K R a r c' : u.Idx → EReal)
    (hK : ∀ j, K j = a j * r j) (hR : ∀ j, R j = a j * (r j * c' j))
    (hcc : ∀ j, d.resultIdx? j idx = some i → c' j = c) :
    c * Ideal.hostScatterAdd d x idx K i = Ideal.hostScatterAdd d x idx R i := by
  unfold Ideal.hostScatterAdd
  simp only [hK, hR]
  rw [hx]
  exact scale_sum c hc hc' _ a r c' fun j hj => hcc j (Finset.mem_filter.mp hj).2

/-- Scaling the plain aggregate of the pre-scaled rows by d[n] is the normalised aggregate. -/
theorem layer_gen {H : Nat}
    (wfg : GatherDims.WF ⟨2, ![50000, H]⟩ ⟨2, ![850000, 1]⟩ ⟨2, ![850000, H]⟩ [1] [0] [] [0] [] 1 ![1, H])
    (wfs : ScatterDims.WF ⟨2, ![50000, H]⟩ ⟨2, ![850000, 1]⟩ ⟨2, ![850000, H]⟩ [1] [0] [0] 1)
    (hb0 : S_.BroadcastsInDim ⟨2, ![50000, H]⟩ (![] : Fin 0 → Fin 2))
    (hb1 : S850000.BroadcastsInDim S850000x1 (![0] : Fin 1 → Fin 2))
    (hb2 : S850000x1.BroadcastsInDim ⟨2, ![850000, H]⟩ (![0, 1] : Fin 2 → Fin 2))
    (X Y : FVec Ideal ⟨2, ![50000, H]⟩ .f32) (dv : FVec Ideal S50000 .f32) (row col : IVec S850000 32)
    (hd : ∀ n : Fin 50000, 0 ≤ dv (ix1 n) ∧ dv (ix1 n) ≠ ⊤)
    (hY : ∀ (p : Fin 50000) (q : Fin H), Y (ix2 p q) = X (ix2 p q) * dv (ix1 p))
    (p : Fin 50000) (q : Fin H) :
    dv (ix1 p) * Host.scatterAdd (sDims2 50000 850000 H wfs)
        (broadcastInDim ⟨2, ![50000, H]⟩ ![] hb0 (constant S_ .f32 0x00000000#32)) (colIdx col)
        (Host.gather (gDims2 50000 850000 H wfg) Y (wrapIdx row)) (ix2 p q)
      = Host.scatterAdd (sDims2 50000 850000 H wfs)
        (broadcastInDim ⟨2, ![50000, H]⟩ ![] hb0 (constant S_ .f32 0x00000000#32)) (colIdx col)
        (mulf (Host.gather (gDims2 50000 850000 H wfg) X (wrapIdx row))
          (broadcastInDim ⟨2, ![850000, H]⟩ ![0, 1] hb2
            (broadcastInDim S850000x1 ![0] hb1 (normOf dv row col)))) (ix2 p q) := by
  -- the kernel's update at (e, q'): the pre-scaled source row
  have hL : ∀ j, Host.gather (gDims2 50000 850000 H wfg) Y (wrapIdx row) j
      = X (ix2 (srcOf row (j 0)) (j 1)) * dv (ix1 (srcOf row (j 0))) := by
    intro j
    obtain ⟨e, q', rfl⟩ : ∃ (e : Fin 850000) (q' : Fin H), j = ix2 e q' := ⟨j 0, j 1, eq_ix2 j⟩
    rw [gatherRow]
    exact hY _ _
  -- the reference's update at (e, q'): the source row times the edge weight
  have hR : ∀ j, mulf (Host.gather (gDims2 50000 850000 H wfg) X (wrapIdx row))
        (broadcastInDim ⟨2, ![850000, H]⟩ ![0, 1] hb2 (broadcastInDim S850000x1 ![0] hb1 (normOf dv row col))) j
      = X (ix2 (srcOf row (j 0)) (j 1)) * (dv (ix1 (srcOf row (j 0))) * dv (ix1 (srcOf col (j 0)))) := by
    intro j
    obtain ⟨e, q', rfl⟩ : ∃ (e : Fin 850000) (q' : Fin H), j = ix2 e q' := ⟨j 0, j 1, eq_ix2 j⟩
    rw [mulf_apply, gatherRow,
      broadcastInDim_apply _ hb2 _ (ix2 e q') (ix2 e (0 : Fin 1)) (by
        intro a
        match a with
        | ⟨0, _⟩ => rfl
        | ⟨1, _⟩ => rfl),
      broadcastInDim_apply _ hb1 _ (ix2 e (0 : Fin 1)) (ix1 e) (by
        intro a
        obtain rfl : a = 0 := Subsingleton.elim _ _
        rfl),
      normOf_apply]
    rfl
  -- an update that lands on (p, q) has the target word p, where wrapping and clamping are the identity
  have hcc : ∀ j, (sDims2 50000 850000 H wfs).resultIdx? j (colIdx col) = some (ix2 p q)
      → dv (ix1 (srcOf col (j 0))) = dv (ix1 p) := by
    intro j hj
    obtain ⟨e, q', rfl⟩ : ∃ (e : Fin 850000) (q' : Fin H), j = ix2 e q' := ⟨j 0, j 1, eq_ix2 j⟩
    have hk := kept2 wfs (colIdx col) e q' p q hj
    rw [colIdx_apply] at hk
    show dv (ix1 (srcOf col e)) = dv (ix1 p)
    rw [srcOf_of_kept col e p hk.1]
  rw [scatterAdd_apply, scatterAdd_apply]
  exact scatter_scale (sDims2 50000 850000 H wfs) (colIdx col) (ix2 p q) (dv (ix1 p)) (hd p).1 (hd p).2 _
    (zeros_apply hb0 _) _ _ (fun j => X (ix2 (srcOf row (j 0)) (j 1))) (fun j => dv (ix1 (srcOf row (j 0))))
    (fun j => dv (ix1 (srcOf col (j 0)))) hL hR hcc
/-! ## The law at the two widths of the network -/

theorem layer100 (X Y : FVec Ideal S50000x100 .f32) (dv : FVec Ideal S50000 .f32) (row col : IVec S850000 32)
    (hd : ∀ n : Fin 50000, 0 ≤ dv (ix1 n) ∧ dv (ix1 n) ≠ ⊤)
    (hY : ∀ (p : Fin 50000) (q : Fin 100), Y (ix2 p q) = X (ix2 p q) * dv (ix1 p))
    (p : Fin 50000) (q : Fin 100) :
    dv (ix1 p) * aggKer100 Y row col (ix2 p q) = aggRef100 X dv row col (ix2 p q) :=
  layer_gen gather_S50000x100_S850000x1_S850000x100_1_0_n_n_0_1_1100_wf
    scatter_S50000x100_S850000x1_S850000x100_1_0_0_1_wf bcast_S_S50000x100 bcast_S850000_S850000x1_0
    bcast_S850000x1_S850000x100_0_1 X Y dv row col hd hY p q

theorem layer200 (X Y : FVec Ideal S50000x200 .f32) (dv : FVec Ideal S50000 .f32) (row col : IVec S850000 32)
    (hd : ∀ n : Fin 50000, 0 ≤ dv (ix1 n) ∧ dv (ix1 n) ≠ ⊤)
    (hY : ∀ (p : Fin 50000) (q : Fin 200), Y (ix2 p q) = X (ix2 p q) * dv (ix1 p))
    (p : Fin 50000) (q : Fin 200) :
    dv (ix1 p) * aggKer200 Y row col (ix2 p q) = aggRef200 X dv row col (ix2 p q) :=
  layer_gen gather_S50000x200_S850000x1_S850000x200_1_0_n_n_0_1_1200_wf
    scatter_S50000x200_S850000x1_S850000x200_1_0_0_1_wf bcast_S_S50000x200 bcast_S850000_S850000x1_0
    bcast_S850000x1_S850000x200_0_1 X Y dv row col hd hY p q

end Cert.Layer

end
-- ==== Proof.DisRange.lean ====
/-
  The normaliser of a GCN layer is a nonnegative finite number at every node.

  The in-degree of a node is a scatter-add of ones from zero: a finite sum of ones, hence a nonnegative real
  (the number of edges that target the node). The normaliser is deg^(-1/2) where the degree is positive and 0
  elsewhere. Where the degree r is positive, the reciprocal square root of the real r is the real (√r)⁻¹, which
  is nonnegative and finite; elsewhere the selected value is 0.
-/
import proofs.«118826_j83958020702803_2_alg».proof.Proof.Layer

noncomputable section

open scoped BigOperators

namespace Cert.DisRange

open Idealize.ShloMosaic Idealize.ShloMosaic.ValueIdx Cert.Graph Cert.ReferenceIdeal Cert.ReferenceIdeal.Gen Cert.Layer

/-- A finite sum of ones is a nonnegative real. -/
theorem sum_one_real {ι : Type} (S : Finset ι) : ∃ r : ℝ, 0 ≤ r ∧ ∑ _j ∈ S, (1 : EReal) = (r : EReal) := by
  classical
  induction S using Finset.induction_on with
  | empty => exact ⟨0, le_refl 0, by simp⟩
  | insert a S ha ih =>
    obtain ⟨r, hr, hs⟩ := ih
    exact ⟨1 + r, by linarith, by rw [Finset.sum_insert ha, hs, EReal.coe_add, EReal.coe_one]⟩

/-- The in-degree of a node is a nonnegative real: the number of edges that target it. -/
theorem degOf_real (col : IVec S850000 32) (n : Fin 50000) : ∃ r : ℝ, 0 ≤ r ∧ degOf col (ix1 n) = (r : EReal) := by
  have h1 : ∀ j, broadcastInDim S850000 ![] bcast_S_S850000 (constant (F := Ideal) S_ .f32 0x3F800000#32) j
      = (1 : EReal) := by
    intro j
    rw [broadcastInDim_scalar_apply, constant_apply, Ideal.ofBits_one_f32]
  have hz : broadcastInDim S50000 ![] bcast_S_S50000 (constant (F := Ideal) S_ .f32 0x00000000#32) (ix1 n) = (0 : EReal) :=
    zeros_apply _ _
  unfold degOf
  rw [scatterAdd_apply]
  unfold Ideal.hostScatterAdd
  simp only [h1]
  rw [hz, zero_add]
  exact sum_one_real _

/-- The host's reciprocal square root at an index is the extended reals' one of the element. -/
theorem hostRsqrt_apply {s : Shape} (x : FVec Ideal s .f32) (i : s.Idx) : Host.rsqrt x i = Ideal.rsqrt (x i) := rfl

/-- deg^(-1/2) where the degree is positive, zero elsewhere: nonnegative and finite at every node. -/
theorem disOf_range (col : IVec S850000 32) (n : Fin 50000) : 0 ≤ disOf col (ix1 n) ∧ disOf col (ix1 n) ≠ ⊤ := by
  obtain ⟨r, hr, hdeg⟩ := degOf_real col n
  have hz : broadcastInDim S50000 ![] bcast_S_S50000 (constant (F := Ideal) S_ .f32 0x00000000#32) (ix1 n) = (0 : EReal) :=
    zeros_apply _ _
  have hval : disOf col (ix1 n) = Scalar.select (Ideal.cmp .ogt (r : EReal) 0) (Ideal.rsqrt (r : EReal)) 0 := by
    unfold disOf
    rw [select_apply, cmpf_apply, Ideal.cmpf_def, id_eq, hz]
    rw [hostRsqrt_apply, hdeg]
  rw [hval]
  by_cases hpos : 0 < r
  · have hc : Ideal.cmp .ogt (r : EReal) 0 = 1#1 := by
      show BitVec.ofBool (decide ((0 : EReal) < (r : EReal))) = 1#1
      rw [decide_eq_true (EReal.coe_pos.mpr hpos)]
      rfl
    rw [hc, select_one, Ideal.rsqrt_coe, if_neg (not_lt.mpr hr), if_neg (ne_of_gt hpos)]
    exact ⟨EReal.coe_nonneg.mpr (inv_nonneg.mpr (Real.sqrt_nonneg r)), EReal.coe_ne_top _⟩
  · have hr0 : r = 0 := le_antisymm (not_lt.mp hpos) hr
    have hc : Ideal.cmp .ogt (r : EReal) 0 = 0#1 := by
      show BitVec.ofBool (decide ((0 : EReal) < (r : EReal))) = 0#1
      rw [decide_eq_false (by rw [hr0, EReal.coe_zero]; exact lt_irrefl 0)]
      rfl
    rw [hc, select_zero]
    exact ⟨le_refl 0, EReal.zero_ne_top⟩

end Cert.DisRange

end
-- ==== Proof.Bridge.lean ====
/-
  The two programs compute one function. Stage by stage, with `d = deg^(-1/2)` (nonnegative and finite):
  the kernel's scaled features are the reference's features times `d`, row by row; hence, by the aggregation law, `d` times
  the kernel's plain aggregate is the reference's normalised aggregate; the hidden rows `max (· + b) 0` then agree, and so
  do the next dense products. Two layers of this and the linear head give the result, index by index.
-/
import proofs.«118826_j83958020702803_2_alg».proof.Proof.KSpec
import proofs.«118826_j83958020702803_2_alg».proof.Proof.RefValue
import proofs.«118826_j83958020702803_2_alg».proof.Proof.Layer
import proofs.«118826_j83958020702803_2_alg».proof.Proof.DisRange
import Idealize.ShloMosaic.Lib.ValueLayout

noncomputable section

namespace Cert.Bridge

open Idealize.ShloMosaic Idealize.ShloMosaic.ValueIdx Cert.Graph Cert.RefValue Cert.KernelIdeal.Val Cert.ReferenceIdeal.ReadP
open Cert.KernelIdeal (S50000x128 S2x800000 S128x100 S100 S100x200 S200 S200x16 S16 S50000x1 S50000 S1x100 S1x200 S1x16 S50000x100 S50000x200 S50000x16)

/-- A vector cast to a column reads, at `(i, 0)`, its entry `i`. -/
theorem col_at {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

open Cert.Layer Cert.DisRange

variable (x0 : S50000x128.Idx → EReal) (x1 : IVec S2x800000 32) (x2 : S128x100.Idx → EReal) (x3 : S100.Idx → EReal)
  (x4 : S100x200.Idx → EReal) (x5 : S200.Idx → EReal) (x6 : S200x16.Idx → EReal) (x7 : S16.Idx → EReal)

/-- The reference's edge lists and its `deg^(-1/2)` are the shared ones. -/
theorem row_eq : val_main_v6 (F := Ideal) x1 = rowOf x1 := rfl
theorem col_eq : val_main_v7 (F := Ideal) x1 = colOf x1 := rfl
theorem dis_eq : val_main_v15 (F := Ideal) x1 = disOf (colOf x1) := by rw [v15_eq, col_eq]

/-- The kernel's column of `deg^(-1/2)` at row `p`. -/
theorem kdis_at (p : Fin 50000) : kdis x1 (ix2 p 0) = disOf (colOf x1) (ix1 p) := col_at _ _ p 0

/-- Layer one's scaled features: the reference's features times `d`. -/
theorem kY1_at (p : Fin 50000) (q : Fin 100) :
    kY1 x0 x1 x2 (ix2 p q) = val_main_v4 (F := Ideal) x0 x2 (ix2 p q) * disOf (colOf x1) (ix1 p) := by
  show g0 x0 x2 (kdis x1) p q = _
  unfold g0
  rw [v4_at, kdis_at]

/-- `d` times the kernel's first aggregate is the reference's normalised aggregate. -/
theorem kA1_at (p : Fin 50000) (k : Fin 100) :
    disOf (colOf x1) (ix1 p) * kA1 x0 x1 x2 (ix2 p k) = val_main_v43 (F := Ideal) x0 x1 x2 (ix2 p k) := by
  rw [v43_eq, row_eq, col_eq, dis_eq]
  exact layer100 (val_main_v4 (F := Ideal) x0 x2) (kY1 x0 x1 x2) (disOf (colOf x1)) (rowOf x1) (colOf x1)
    (disOf_range (colOf x1)) (kY1_at x0 x1 x2) p k

/-- Layer two's scaled features: the reference's features times `d`. -/
theorem kY2_at (p : Fin 50000) (q : Fin 200) :
    kY2 x0 x1 x2 x3 x4 (ix2 p q) = val_main_v48 (F := Ideal) x0 x1 x2 x3 x4 (ix2 p q) * disOf (colOf x1) (ix1 p) := by
  show g1 (kA1 x0 x1 x2) (kdis x1) (shapeCast Cert.KernelIdeal.S1x100 x3 _) x4 p q = _
  unfold g1 hid
  rw [v48_at, kdis_at]
  refine congrArg (· * disOf (colOf x1) (ix1 p)) (Finset.sum_congr rfl fun k _ => ?_)
  rw [kA1_at, shapeCast_a_1a_apply x3 _ 0 k]

/-- `d` times the kernel's second aggregate is the reference's normalised aggregate. -/
theorem kA2_at (p : Fin 50000) (k : Fin 200) :
    disOf (colOf x1) (ix1 p) * kA2 x0 x1 x2 x3 x4 (ix2 p k) = val_main_v87 (F := Ideal) x0 x1 x2 x3 x4 (ix2 p k) := by
  rw [v87_eq, row_eq, col_eq, dis_eq]
  exact layer200 (val_main_v48 (F := Ideal) x0 x1 x2 x3 x4) (kY2 x0 x1 x2 x3 x4) (disOf (colOf x1)) (rowOf x1) (colOf x1)
    (disOf_range (colOf x1)) (kY2_at x0 x1 x2 x3 x4) p k

/-- The kernel's result is the reference's, as arrays. -/
theorem kOut_eq : kOut x0 x1 x2 x3 x4 x5 x6 x7 = val_main_v95 (F := Ideal) x0 x1 x2 x3 x4 x5 x6 x7 := by
  funext i
  obtain ⟨p, q, rfl⟩ : ∃ (p : Fin 50000) (q : Fin 16), i = ix2 p q := ⟨i 0, i 1, eq_ix2 i⟩
  show g2 (kA2 x0 x1 x2 x3 x4) (kdis x1) (shapeCast Cert.KernelIdeal.S1x200 x5 _) x6
    (shapeCast Cert.KernelIdeal.S1x16 x7 _) p q = _
  unfold g2 hid2
  rw [v95_at, kdis_at, shapeCast_a_1a_apply x7 _ 0 q]
  refine congrArg (· + x7 (ix1 q)) (Finset.sum_congr rfl fun k _ => ?_)
  rw [kA2_at, shapeCast_a_1a_apply x5 _ 0 k]

end Cert.Bridge

end
-- ==== Proof.lean ====
/-
  A two-layer graph convolution network with a linear head on 50000 nodes and 850000 edges (800000 given, one self-loop
  per node), against its plain reference. With `d = deg^(-1/2)` (zero where the degree is zero) the reference weights every
  message: `Σ_{e : col e = n} X[row e] · (d[row e] · d[col e])`; the kernel scales the rows before the aggregation and the
  aggregate after it: `d[n] · Σ_{e : col e = n} (X[row e] · d[row e])`. Both read the same edge lists through the same gathers
  and scatter-adds. The two agree on the extended reals for ANY features, because `d[n]` is nonnegative and finite — a
  multiplication by such a number distributes over every extended-real sum — and because an update the scatter keeps has
  its target inside the node range, where the reference's read of `d[col e]` is `d[n]`. The dense products (the matrix
  unit's, block by block over ten row blocks, against one whole `dot_general`), the biases and the rectifiers are the same
  sums, maxima and additions on both sides. The precondition is never opened.

  The three frames: each program terminates without a fault and leaves its arguments as launched. The idealization rewrote
  nothing, so `preserves` holds trivially. `algebraic`: both runs end with the result array at one function of the
  arguments (`Cert.Bridge.kOut_eq`).
-/
import proofs.«118826_j83958020702803_2_alg».proof.Defs
import proofs.«118826_j83958020702803_2_alg».proof.Proof.Gen.Kernel
import proofs.«118826_j83958020702803_2_alg».proof.Proof.Gen.Kernel.Skeleton
import proofs.«118826_j83958020702803_2_alg».proof.Proof.Gen.Kernel.Launch
import proofs.«118826_j83958020702803_2_alg».proof.Proof.Gen.Kernel.Points
import proofs.«118826_j83958020702803_2_alg».proof.Proof.Gen.Kernel.Frame
import proofs.«118826_j83958020702803_2_alg».proof.Proof.Gen.KernelIdeal
import proofs.«118826_j83958020702803_2_alg».proof.Proof.Gen.KernelIdeal.Skeleton
import proofs.«118826_j83958020702803_2_alg».proof.Proof.Gen.KernelIdeal.Launch
import proofs.«118826_j83958020702803_2_alg».proof.Proof.Gen.KernelIdeal.Points
import proofs.«118826_j83958020702803_2_alg».proof.Proof.Gen.KernelIdeal.Frame
import proofs.«118826_j83958020702803_2_alg».proof.Proof.Gen.ReferenceIdeal
import proofs.«118826_j83958020702803_2_alg».proof.Proof.RefRun
import proofs.«118826_j83958020702803_2_alg».proof.Proof.RefRead
import proofs.«118826_j83958020702803_2_alg».proof.Proof.Gen.Pre_finite_inputs
import proofs.«118826_j83958020702803_2_alg».proof.Proof.KRun
import proofs.«118826_j83958020702803_2_alg».proof.Proof.KFold
import proofs.«118826_j83958020702803_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the kernel's stage-by-stage function of the arguments; the reference's own
    term is that function (`Cert.Bridge.kOut_eq`), read at arguments that agree. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Run.W8_out m ρ c), (h c).2⟩)
    (Cert.KernelIdeal.Run.run_named (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v95_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.kOut_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
